-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x640000 : Shape := ⟨2, ![2, 640000]⟩
abbrev S640000x1 : Shape := ⟨2, ![640000, 1]⟩
abbrev S64 : Shape := ⟨1, ![64]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S131x131 : Shape := ⟨2, ![131, 131]⟩
abbrev S131 : Shape := ⟨1, ![131]⟩
abbrev S131x2 : Shape := ⟨2, ![131, 2]⟩
abbrev S2 : Shape := ⟨1, ![2]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S640000x1 : S_.BroadcastsInDim S640000x1 (![] : Fin 0 → Fin S640000x1.rank)
  reducesTo_S640000x1_S_d0_1 : S640000x1.ReducesTo [0, 1] S_
  bcast_S_S64 : S_.BroadcastsInDim S64 (![] : Fin 0 → Fin S64.rank)
  reducesTo_S64_S_d0 : S64.ReducesTo [0] S_
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S131x131 : S_.BroadcastsInDim S131x131 (![] : Fin 0 → Fin S131x131.rank)
  reducesTo_S131x131_S_d0_1 : S131x131.ReducesTo [0, 1] S_
  bcast_S_S131 : S_.BroadcastsInDim S131 (![] : Fin 0 → Fin S131.rank)
  reducesTo_S131_S_d0 : S131.ReducesTo [0] S_
  bcast_S_S131x2 : S_.BroadcastsInDim S131x2 (![] : Fin 0 → Fin S131x2.rank)
  reducesTo_S131x2_S_d0_1 : S131x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S131x2 .f32) (main_arg14 : FVec F S2 .f32) (main_v48 : IVec S_ 1) (main_v49 : FVec F S131 .f32) (main_v50 : FVec F S131 .f32) : IVec S_ 1 :=
  let main_v51 : IVec S131 1 := cmpf .olt main_v49 main_v50
  let main_c_19 : IVec S_ 1 := constantI S_ 1 1#1
  let main_v52 : IVec S_ 1 := (fun x v => Host.reduce IntOp.andi x v reducesTo_S131_S_d0 h_S_) main_v51 main_c_19
  let main_v53 : IVec S_ 1 := andi main_v48 main_v52
  let main_v54 : FVec F S131x2 .f32 := Host.absf main_arg13
  let main_cst_20 : FVec F S_ .f32 := constant S_ .f32 0x7F800000#32
  let main_v55 : FVec F S131x2 .f32 := broadcastInDim S131x2 ![] bcast_S_S131x2 main_cst_20
  let main_v56 : IVec S131x2 1 := cmpf .olt main_v54 main_v55
  let main_c_21 : IVec S_ 1 := constantI S_ 1 1#1
  let main_v57 : IVec S_ 1 := (fun x v => Host.reduce IntOp.andi x v reducesTo_S131x2_S_d0_1 h_S_) main_v56 main_c_21
  let main_v58 : IVec S_ 1 := andi main_v53 main_v57
  let main_v59 : FVec F S2 .f32 := Host.absf main_arg14
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S131x131 .f32) (main_arg12 : FVec F S131 .f32) (main_arg13 : FVec F S131x2 .f32) (main_arg14 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S131x131 .f32 := Host.absf main_arg11
  let main_cst_16 : FVec F S_ .f32 := constant S_ .f32 0x7F800000#32
  let main_v45 : FVec F S131x131 .f32 := broadcastInDim S131x131 ![] bcast_S_S131x131 main_cst_16
  let main_v46 : IVec S131x131 1 := cmpf .olt main_v44 main_v45
  let main_c_17 : IVec S_ 1 := constantI S_ 1 1#1
  let main_v47 : IVec S_ 1 := (fun x v => Host.reduce IntOp.andi x v reducesTo_S131x131_S_d0_1 h_S_) main_v46 main_c_17
  let main_v48 : IVec S_ 1 := andi main_v43 main_v47
  let main_v49 : FVec F S131 .f32 := Host.absf main_arg12
  let main_cst_18 : FVec F S_ .f32 := constant S_ .f32 0x7F800000#32
  let main_v50 : FVec F S131 .f32 := broadcastInDim S131 ![] bcast_S_S131 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S131x131 .f32) (main_arg12 : FVec F S131 .f32) (main_arg13 : FVec F S131x2 .f32) (main_arg14 : FVec F S2 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x2 .f32) (main_arg1 : IVec S2x640000 32) (main_arg2 : FVec F S640000x1 .f32) (main_arg3 : FVec F S64 .f32) (main_arg4 : IVec S100000 32) (main_arg5 : FVec F S3x128 .f32) (main_arg6 : FVec F S128 .f32) (main_arg7 : FVec F S128x128 .f32) (main_arg8 : FVec F S128 .f32) (main_arg9 : FVec F S128x128 .f32) (main_arg10 : FVec F S128 .f32) (main_arg11 : FVec F S131x131 .f32) (main_arg12 : FVec F S131 .f32) (main_arg13 : FVec F S131x2 .f32) (main_arg14 : FVec F S2 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S640000x1 .f32 := Host.absf main_arg2
  let main_cst_0 : FVec F S_ .f32 := constant S_ .f32 0x7F800000#32
  let main_v5 : FVec F S640000x1 .f32 := broadcastInDim S640000x1 ![] bcast_S_S640000x1 main_cst_0
  let main_v6 : IVec S640000x1 1 := cmpf .olt main_v4 main_v5
  let main_c_1 : IVec S_ 1 := constantI S_ 1 1#1
  let main_v7 : IVec S_ 1 := (fun x v => Host.reduce IntOp.andi x v reducesTo_S640000x1_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_arg9 main_arg10 main_arg11 main_arg12 main_arg13 main_arg14 main_v13 main_v16
-- ==== Kernel.lean ====
abbrev S100000x2 : Shape := ⟨2, ![100000, 2]⟩
abbrev S2x640000 : Shape := ⟨2, ![2, 640000]⟩
abbrev S640000x1 : Shape := ⟨2, ![640000, 1]⟩
abbrev S64 : Shape := ⟨1, ![64]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S131x131 : Shape := ⟨2, ![131, 131]⟩
abbrev S131 : Shape := ⟨1, ![131]⟩
abbrev S131x2 : Shape := ⟨2, ![131, 2]⟩
abbrev S2 : Shape := ⟨1, ![2]⟩
abbrev S1x640000 : Shape := ⟨2, ![1, 640000]⟩
abbrev S640000 : Shape := ⟨1, ![640000]⟩
abbrev S_ : Shape := ⟨0, ![]⟩
abbrev S640000x2 : Shape := ⟨2, ![640000, 2]⟩
abbrev S640000x3 : Shape := ⟨2, ![640000, 3]⟩
abbrev S1x128 : Shape := ⟨2, ![1, 128]⟩
abbrev S640000x128 : Shape := ⟨2, ![640000, 128]⟩
abbrev S5000x3 : Shape := ⟨2, ![5000, 3]⟩
abbrev S5000x128 : Shape := ⟨2, ![5000, 128]⟩
abbrev S100000x128 : Shape := ⟨2, ![100000, 128]⟩
abbrev S100000x1 : Shape := ⟨2, ![100000, 1]⟩
abbrev S64x1 : Shape := ⟨2, ![64, 1]⟩
abbrev S100000x131 : Shape := ⟨2, ![100000, 131]⟩
abbrev S1x131 : Shape := ⟨2, ![1, 131]⟩
abbrev S1x2 : Shape := ⟨2, ![1, 2]⟩
abbrev S5000x131 : Shape := ⟨2, ![5000, 131]⟩
abbrev S5000x2 : Shape := ⟨2, ![5000, 2]⟩

abbrev nBuf : Space → Nat
  | .hbm => 63
  | .vmem => 18
  | .smem => 0
  | _ => 0

abbrev bufTy : (tb : Table) → Fin (tcTables nBuf tb) → BufTy
  | .hbm, ⟨0, _⟩ => ⟨S100000x2, .f32⟩
  | .hbm, ⟨1, _⟩ => ⟨S2x640000, .i32⟩
  | .hbm, ⟨2, _⟩ => ⟨S640000x1, .f32⟩
  | .hbm, ⟨3, _⟩ => ⟨S64, .f32⟩
  | .hbm, ⟨4, _⟩ => ⟨S100000, .i32⟩
  | .hbm, ⟨5, _⟩ => ⟨S3x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S131x131, .f32⟩
  | .hbm, ⟨12, _⟩ => ⟨S131, .f32⟩
  | .hbm, ⟨13, _⟩ => ⟨S131x2, .f32⟩
  | .hbm, ⟨14, _⟩ => ⟨S2, .f32⟩
  | .hbm, ⟨15, _⟩ => ⟨S1x640000, .i32⟩
  | .hbm, ⟨16, _⟩ => ⟨S640000, .i32⟩
  | .hbm, ⟨17, _⟩ => ⟨S1x640000, .i32⟩
  | .hbm, ⟨18, _⟩ => ⟨S640000, .i32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x2, .f32⟩
  | .hbm, ⟨28, _⟩ => ⟨S640000x3, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S640000x128, .f32⟩
  | .hbm, ⟨33, _⟩ => ⟨S_, .f32⟩
  | .hbm, ⟨34, _⟩ => ⟨S100000x128, .f32⟩
  | .hbm, ⟨35, _⟩ => ⟨S640000x1, .i32⟩
  | .hbm, ⟨36, _⟩ => ⟨S100000x128, .f32⟩
  | .hbm, ⟨37, _⟩ => ⟨S_, .f32⟩
  | .hbm, ⟨38, _⟩ => ⟨S640000, .f32⟩
  | .hbm, ⟨39, _⟩ => ⟨S_, .f32⟩
  | .hbm, ⟨40, _⟩ => ⟨S100000, .f32⟩
  | .hbm, ⟨41, _⟩ => ⟨S640000x1, .i32⟩
  | .hbm, ⟨42, _⟩ => ⟨S100000, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000x1, .f32⟩
  | .hbm, ⟨47, _⟩ => ⟨S100000x128, .f32⟩
  | .hbm, ⟨48, _⟩ => ⟨S100000x128, .f32⟩
  | .hbm, ⟨49, _⟩ => ⟨S64x1, .f32⟩
  | .hbm, ⟨50, _⟩ => ⟨S_, .i32⟩
  | .hbm, ⟨51, _⟩ => ⟨S100000, .i32⟩
  | .hbm, ⟨52, _⟩ => ⟨S100000, .i1⟩
  | .hbm, ⟨53, _⟩ => ⟨S_, .i32⟩
  | .hbm, ⟨54, _⟩ => ⟨S100000, .i32⟩
  | .hbm, ⟨55, _⟩ => ⟨S100000, .i32⟩
  | .hbm, ⟨56, _⟩ => ⟨S100000, .i32⟩
  | .hbm, ⟨57, _⟩ => ⟨S100000x1, .i32⟩
  | .hbm, ⟨58, _⟩ => ⟨S100000x1, .f32⟩
  | .hbm, ⟨59, _⟩ => ⟨S100000x131, .f32⟩
  | .hbm, ⟨60, _⟩ => ⟨S1x131, .f32⟩
  | .hbm, ⟨61, _⟩ => ⟨S1x2, .f32⟩
  | .hbm, ⟨62, _⟩ => ⟨S100000x2, .f32⟩
  | .local _ .vmem, ⟨0, _⟩ => ⟨S5000x3, .f32⟩
  | .local _ .vmem, ⟨1, _⟩ => ⟨S5000x3, .f32⟩
  | .local _ .vmem, ⟨2, _⟩ => ⟨S3x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x131, .f32⟩
  | .local _ .vmem, ⟨11, _⟩ => ⟨S5000x131, .f32⟩
  | .local _ .vmem, ⟨12, _⟩ => ⟨S131x131, .f32⟩
  | .local _ .vmem, ⟨13, _⟩ => ⟨S1x131, .f32⟩
  | .local _ .vmem, ⟨14, _⟩ => ⟨S131x2, .f32⟩
  | .local _ .vmem, ⟨15, _⟩ => ⟨S1x2, .f32⟩
  | .local _ .vmem, ⟨16, _⟩ => ⟨S5000x2, .f32⟩
  | .local _ .vmem, ⟨17, _⟩ => ⟨S5000x2, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_4 : Ref sig .tc := ⟨.hbm, 50, rfl⟩
abbrev main_v29 : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x131 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S131x131 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x131 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S131x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x2_S640000x1_S640000x3_d1 : Shape.Concatenates [S640000x2, S640000x1] S640000x3 1
  shapeCasts_S128_S1x128 : S128.ShapeCasts S1x128
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  bitsLt_bf16_f32 : FTy.bits .bf16 < FTy.bits .f32
  inb_S3x128_S3x128_0_0 : ∀ a, (![0, 0] : Fin 2 → Nat) a + S3x128.size a ≤ S3x128.size a
  h_S3x128 : 0 < S3x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S64_S64x1 : S64.ShapeCasts S64x1
  concatenates_S100000x2_S100000x128_S100000x1_S100000x131_d1 : Shape.Concatenates [S100000x2, S100000x128, S100000x1] S100000x131 1
  shapeCasts_S131_S1x131 : S131.ShapeCasts S1x131
  shapeCasts_S2_S1x2 : S2.ShapeCasts S1x2
  inb_S5000x131_S5000x131_0_0 : ∀ a, (![0, 0] : Fin 2 → Nat) a + S5000x131.size a ≤ S5000x131.size a
  h_S5000x131 : 0 < S5000x131.numel
  shapeCasts_S5000x131_S5000x131 : S5000x131.ShapeCasts S5000x131
  inb_S131x131_S131x131_0_0 : ∀ a, (![0, 0] : Fin 2 → Nat) a + S131x131.size a ≤ S131x131.size a
  h_S131x131 : 0 < S131x131.numel
  inb_S1x131_S1x131_0_0 : ∀ a, (![0, 0] : Fin 2 → Nat) a + S1x131.size a ≤ S1x131.size a
  h_S1x131 : 0 < S1x131.numel
  shapeCasts_S1x131_S1x131 : S1x131.ShapeCasts S1x131
  broadcasts_S1x131_S5000x131 : S1x131.Broadcasts S5000x131
  inb_S131x2_S131x2_0_0 : ∀ a, (![0, 0] : Fin 2 → Nat) a + S131x2.size a ≤ S131x2.size a
  h_S131x2 : 0 < S131x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  gather_S100000x2_S640000x1_S640000x2_1_0_n_n_0_1_12_wf : GatherDims.WF S100000x2 S640000x1 S640000x2 [1] [0] [] [0] [] 1 ![1, 2]
  dot_S5000x3_S3x128_S5000x128_1_0_0_1_n_n_wf : DotDims.WF S5000x3 S3x128 S5000x128 [1] [0] [0] [1] [] []
  dot_S5000x128_S128x128_S5000x128_1_0_0_1_n_n_wf : DotDims.WF S5000x128 S128x128 S5000x128 [1] [0] [0] [1] [] []
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  gather_S64x1_S100000x1_S100000x1_1_0_n_n_0_1_11_wf : GatherDims.WF S64x1 S100000x1 S100000x1 [1] [0] [] [0] [] 1 ![1, 1]
  dot_S5000x131_S131x131_S5000x131_1_0_0_1_n_n_wf : DotDims.WF S5000x131 S131x131 S5000x131 [1] [0] [0] [1] [] []
  dot_S5000x131_S131x2_S5000x2_1_0_0_1_n_n_wf : DotDims.WF S5000x131 S131x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S640000x3.size a
  hwx0_0 : ∀ i : grid0.Coords, EltTy.bits .f32 = 32 ∨ (Rect.block (s := S640000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128.size a ≤ S3x128.size a
  hwx0_1 : ∀ i : grid0.Coords, EltTy.bits .f32 = 32 ∨ (Rect.block (s := S3x128) S3x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S640000x128.size a
  hwx0_7 : ∀ i : grid0.Coords, EltTy.bits .f32 = 32 ∨ (Rect.block (s := S640000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x131.size a ≤ S100000x131.size a
  hwx1_0 : ∀ i : grid1.Coords, EltTy.bits .f32 = 32 ∨ (Rect.block (s := S100000x131) S5000x131.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S131x131.size a ≤ S131x131.size a
  hwx1_1 : ∀ i : grid1.Coords, EltTy.bits .f32 = 32 ∨ (Rect.block (s := S131x131) S131x131.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x131.size a ≤ S1x131.size a
  hwx1_2 : ∀ i : grid1.Coords, EltTy.bits .f32 = 32 ∨ (Rect.block (s := S1x131) S1x131.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S131x2.size a ≤ S131x2.size a
  hwx1_3 : ∀ i : grid1.Coords, EltTy.bits .f32 = 32 ∨ (Rect.block (s := S131x2) S131x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2.size a ≤ S1x2.size a
  hwx1_4 : ∀ i : grid1.Coords, EltTy.bits .f32 = 32 ∨ (Rect.block (s := S1x2) S1x2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x2.size a ≤ S100000x2.size a
  hwx1_5 : ∀ i : grid1.Coords, EltTy.bits .f32 = 32 ∨ (Rect.block (s := S100000x2) S5000x2.size (cc1_transform_5 i) (hinb1_5 i)).WholeWords (EltTy.packing .f32)

variable [Facts₀]

def gather_S100000x2_S640000x1_S640000x2_1_0_n_n_0_1_12 : GatherDims S100000x2 S640000x1 S640000x2 where
  offsetDims := [1]
  collapsedSliceDims := [0]
  operandBatchingDims := []
  startIndicesBatchingDims := []
  startIndexMap := [0]
  indexVectorDim := 1
  sliceSizes := ![1, 2]
  wf := gather_S100000x2_S640000x1_S640000x2_1_0_n_n_0_1_12_wf
def dot_S5000x3_S3x128_S5000x128_1_0_0_1_n_n : DotDims S5000x3 S3x128 S5000x128 where
  lhsContracting := [1]
  rhsContracting := [0]
  lhsNonContracting := [0]
  rhsNonContracting := [1]
  lhsBatch := []
  rhsBatch := []
  wf := dot_S5000x3_S3x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S64x1_S100000x1_S100000x1_1_0_n_n_0_1_11 : GatherDims S64x1 S100000x1 S100000x1 where
  offsetDims := [1]
  collapsedSliceDims := [0]
  operandBatchingDims := []
  startIndicesBatchingDims := []
  startIndexMap := [0]
  indexVectorDim := 1
  sliceSizes := ![1, 1]
  wf := gather_S64x1_S100000x1_S100000x1_1_0_n_n_0_1_11_wf
def dot_S5000x131_S131x131_S5000x131_1_0_0_1_n_n : DotDims S5000x131 S131x131 S5000x131 where
  lhsContracting := [1]
  rhsContracting := [0]
  lhsNonContracting := [0]
  rhsNonContracting := [1]
  lhsBatch := []
  rhsBatch := []
  wf := dot_S5000x131_S131x131_S5000x131_1_0_0_1_n_n_wf
def dot_S5000x131_S131x2_S5000x2_1_0_0_1_n_n : DotDims S5000x131 S131x2 S5000x2 where
  lhsContracting := [1]
  rhsContracting := [0]
  lhsNonContracting := [0]
  rhsNonContracting := [1]
  lhsBatch := []
  rhsBatch := []
  wf := dot_S5000x131_S131x2_S5000x2_1_0_0_1_n_n_wf

abbrev win0_0 : Pipeline.Window sig grid0 :=
  Pipeline.Window.ofSpec (Memref.whole main_v11) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S3x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v36) S5000x131.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S131x131.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x131.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S131x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x2 : Shape := ⟨2, ![100000, 2]⟩
abbrev S2x640000 : Shape := ⟨2, ![2, 640000]⟩
abbrev S640000x1 : Shape := ⟨2, ![640000, 1]⟩
abbrev S64 : Shape := ⟨1, ![64]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S131x131 : Shape := ⟨2, ![131, 131]⟩
abbrev S131 : Shape := ⟨1, ![131]⟩
abbrev S131x2 : Shape := ⟨2, ![131, 2]⟩
abbrev S2 : Shape := ⟨1, ![2]⟩
abbrev S1x640000 : Shape := ⟨2, ![1, 640000]⟩
abbrev S640000 : Shape := ⟨1, ![640000]⟩
abbrev S_ : Shape := ⟨0, ![]⟩
abbrev S640000x2 : Shape := ⟨2, ![640000, 2]⟩
abbrev S640000x3 : Shape := ⟨2, ![640000, 3]⟩
abbrev S640000x128 : Shape := ⟨2, ![640000, 128]⟩
abbrev S1x128 : Shape := ⟨2, ![1, 128]⟩
abbrev S100000x128 : Shape := ⟨2, ![100000, 128]⟩
abbrev S100000x1 : Shape := ⟨2, ![100000, 1]⟩
abbrev S64x1 : Shape := ⟨2, ![64, 1]⟩
abbrev S100000x131 : Shape := ⟨2, ![100000, 131]⟩
abbrev S1x131 : Shape := ⟨2, ![1, 131]⟩
abbrev S1x2 : Shape := ⟨2, ![1, 2]⟩

abbrev nBuf : Space → Nat
  | .hbm => 85
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S2x640000, .i32⟩
  | .hbm, ⟨2, _⟩ => ⟨S640000x1, .f32⟩
  | .hbm, ⟨3, _⟩ => ⟨S64, .f32⟩
  | .hbm, ⟨4, _⟩ => ⟨S100000, .i32⟩
  | .hbm, ⟨5, _⟩ => ⟨S3x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S131x131, .f32⟩
  | .hbm, ⟨12, _⟩ => ⟨S131, .f32⟩
  | .hbm, ⟨13, _⟩ => ⟨S131x2, .f32⟩
  | .hbm, ⟨14, _⟩ => ⟨S2, .f32⟩
  | .hbm, ⟨15, _⟩ => ⟨S1x640000, .i32⟩
  | .hbm, ⟨16, _⟩ => ⟨S640000, .i32⟩
  | .hbm, ⟨17, _⟩ => ⟨S1x640000, .i32⟩
  | .hbm, ⟨18, _⟩ => ⟨S640000, .i32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x2, .f32⟩
  | .hbm, ⟨28, _⟩ => ⟨S640000x3, .f32⟩
  | .hbm, ⟨29, _⟩ => ⟨S640000x128, .f32⟩
  | .hbm, ⟨30, _⟩ => ⟨S1x128, .f32⟩
  | .hbm, ⟨31, _⟩ => ⟨S640000x128, .f32⟩
  | .hbm, ⟨32, _⟩ => ⟨S640000x128, .f32⟩
  | .hbm, ⟨33, _⟩ => ⟨S_, .f32⟩
  | .hbm, ⟨34, _⟩ => ⟨S640000x128, .f32⟩
  | .hbm, ⟨35, _⟩ => ⟨S640000x128, .f32⟩
  | .hbm, ⟨36, _⟩ => ⟨S640000x128, .f32⟩
  | .hbm, ⟨37, _⟩ => ⟨S1x128, .f32⟩
  | .hbm, ⟨38, _⟩ => ⟨S640000x128, .f32⟩
  | .hbm, ⟨39, _⟩ => ⟨S640000x128, .f32⟩
  | .hbm, ⟨40, _⟩ => ⟨S_, .f32⟩
  | .hbm, ⟨41, _⟩ => ⟨S640000x128, .f32⟩
  | .hbm, ⟨42, _⟩ => ⟨S640000x128, .f32⟩
  | .hbm, ⟨43, _⟩ => ⟨S640000x128, .f32⟩
  | .hbm, ⟨44, _⟩ => ⟨S1x128, .f32⟩
  | .hbm, ⟨45, _⟩ => ⟨S640000x128, .f32⟩
  | .hbm, ⟨46, _⟩ => ⟨S640000x128, .f32⟩
  | .hbm, ⟨47, _⟩ => ⟨S_, .f32⟩
  | .hbm, ⟨48, _⟩ => ⟨S100000x128, .f32⟩
  | .hbm, ⟨49, _⟩ => ⟨S640000x1, .i32⟩
  | .hbm, ⟨50, _⟩ => ⟨S100000x128, .f32⟩
  | .hbm, ⟨51, _⟩ => ⟨S_, .f32⟩
  | .hbm, ⟨52, _⟩ => ⟨S640000, .f32⟩
  | .hbm, ⟨53, _⟩ => ⟨S_, .f32⟩
  | .hbm, ⟨54, _⟩ => ⟨S100000, .f32⟩
  | .hbm, ⟨55, _⟩ => ⟨S640000x1, .i32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S64x1, .f32⟩
  | .hbm, ⟨64, _⟩ => ⟨S_, .i32⟩
  | .hbm, ⟨65, _⟩ => ⟨S100000, .i32⟩
  | .hbm, ⟨66, _⟩ => ⟨S100000, .i1⟩
  | .hbm, ⟨67, _⟩ => ⟨S_, .i32⟩
  | .hbm, ⟨68, _⟩ => ⟨S100000, .i32⟩
  | .hbm, ⟨69, _⟩ => ⟨S100000, .i32⟩
  | .hbm, ⟨70, _⟩ => ⟨S100000, .i32⟩
  | .hbm, ⟨71, _⟩ => ⟨S100000x1, .i32⟩
  | .hbm, ⟨72, _⟩ => ⟨S100000x1, .f32⟩
  | .hbm, ⟨73, _⟩ => ⟨S100000x131, .f32⟩
  | .hbm, ⟨74, _⟩ => ⟨S100000x131, .f32⟩
  | .hbm, ⟨75, _⟩ => ⟨S1x131, .f32⟩
  | .hbm, ⟨76, _⟩ => ⟨S100000x131, .f32⟩
  | .hbm, ⟨77, _⟩ => ⟨S100000x131, .f32⟩
  | .hbm, ⟨78, _⟩ => ⟨S_, .f32⟩
  | .hbm, ⟨79, _⟩ => ⟨S100000x131, .f32⟩
  | .hbm, ⟨80, _⟩ => ⟨S100000x131, .f32⟩
  | .hbm, ⟨81, _⟩ => ⟨S100000x2, .f32⟩
  | .hbm, ⟨82, _⟩ => ⟨S1x2, .f32⟩
  | .hbm, ⟨83, _⟩ => ⟨S100000x2, .f32⟩
  | .hbm, ⟨84, _⟩ => ⟨S100000x2, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_1 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_3 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_6 : Ref sig .tc := ⟨.hbm, 64, rfl⟩
abbrev main_v41 : Ref sig .tc := ⟨.hbm, 65, rfl⟩
abbrev main_v42 : Ref sig .tc := ⟨.hbm, 66, rfl⟩
abbrev main_c_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_8 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x2_S640000x1_S640000x3_d1 : Shape.Concatenates [S640000x2, S640000x1] S640000x3 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S64_S64x1 : S64.ShapeCasts S64x1
  concatenates_S100000x2_S100000x128_S100000x1_S100000x131_d1 : Shape.Concatenates [S100000x2, S100000x128, S100000x1] S100000x131 1
  bcast_S131_S1x131_1 : S131.BroadcastsInDim S1x131 (![1] : Fin 1 → Fin S1x131.rank)
  bcast_S1x131_S100000x131_0_1 : S1x131.BroadcastsInDim S100000x131 (![0, 1] : Fin 2 → Fin S100000x131.rank)
  bcast_S_S100000x131 : S_.BroadcastsInDim S100000x131 (![] : Fin 0 → Fin S100000x131.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x2_S640000x1_S640000x2_1_0_n_n_0_1_12_wf : GatherDims.WF S100000x2 S640000x1 S640000x2 [1] [0] [] [0] [] 1 ![1, 2]
  dot_S640000x3_S3x128_S640000x128_1_0_0_1_n_n_wf : DotDims.WF S640000x3 S3x128 S640000x128 [1] [0] [0] [1] [] []
  dot_S640000x128_S128x128_S640000x128_1_0_0_1_n_n_wf : DotDims.WF S640000x128 S128x128 S640000x128 [1] [0] [0] [1] [] []
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  gather_S64x1_S100000x1_S100000x1_1_0_n_n_0_1_11_wf : GatherDims.WF S64x1 S100000x1 S100000x1 [1] [0] [] [0] [] 1 ![1, 1]
  dot_S100000x131_S131x131_S100000x131_1_0_0_1_n_n_wf : DotDims.WF S100000x131 S131x131 S100000x131 [1] [0] [0] [1] [] []
  dot_S100000x131_S131x2_S100000x2_1_0_0_1_n_n_wf : DotDims.WF S100000x131 S131x2 S100000x2 [1] [0] [0] [1] [] []

variable [Facts₀]

def gather_S100000x2_S640000x1_S640000x2_1_0_n_n_0_1_12 : GatherDims S100000x2 S640000x1 S640000x2 where
  offsetDims := [1]
  collapsedSliceDims := [0]
  operandBatchingDims := []
  startIndicesBatchingDims := []
  startIndexMap := [0]
  indexVectorDim := 1
  sliceSizes := ![1, 2]
  wf := gather_S100000x2_S640000x1_S640000x2_1_0_n_n_0_1_12_wf
def dot_S640000x3_S3x128_S640000x128_1_0_0_1_n_n : DotDims S640000x3 S3x128 S640000x128 where
  lhsContracting := [1]
  rhsContracting := [0]
  lhsNonContracting := [0]
  rhsNonContracting := [1]
  lhsBatch := []
  rhsBatch := []
  wf := dot_S640000x3_S3x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S64x1_S100000x1_S100000x1_1_0_n_n_0_1_11 : GatherDims S64x1 S100000x1 S100000x1 where
  offsetDims := [1]
  collapsedSliceDims := [0]
  operandBatchingDims := []
  startIndicesBatchingDims := []
  startIndexMap := [0]
  indexVectorDim := 1
  sliceSizes := ![1, 1]
  wf := gather_S64x1_S100000x1_S100000x1_1_0_n_n_0_1_11_wf
def dot_S100000x131_S131x131_S100000x131_1_0_0_1_n_n : DotDims S100000x131 S131x131 S100000x131 where
  lhsContracting := [1]
  rhsContracting := [0]
  lhsNonContracting := [0]
  rhsNonContracting := [1]
  lhsBatch := []
  rhsBatch := []
  wf := dot_S100000x131_S131x131_S100000x131_1_0_0_1_n_n_wf
def dot_S100000x131_S131x2_S100000x2_1_0_0_1_n_n : DotDims S100000x131 S131x2 S100000x2 where
  lhsContracting := [1]
  rhsContracting := [0]
  lhsNonContracting := [0]
  rhsNonContracting := [1]
  lhsBatch := []
  rhsBatch := []
  wf := dot_S100000x131_S131x2_S100000x2_1_0_0_1_n_n_wf

class Facts : Prop extends Facts₀ where

variable [Facts]
-- ==== Proof.KRun.lean ====
/-
  The run of a program that calls two block-pipelined kernels between stretches of host operations, followed from the
  launch to the return, at any float instance.

  Each call walks a one-axis grid. At a grid point the pipeline hands the body one block of its first operand (a stretch
  of 5000 consecutive rows) and the whole of every other operand (the weight matrices and the bias rows, which are a
  single block each), and the body stores one whole block of the result: the same stretch of 5000 rows. The body's stored
  value is one pure function of the blocks it loads; it also loads the result block first and discards what it read.

  What is proved here: the contents of every buffer outside the staging memory at each boundary between two items of the
  program (a fold from the launch memory: a host stretch applies its operations, a call replaces its result array by what
  its write-backs leave and keeps everything else), that every execution reaches the end without a fault, and that the
  final memory is the last boundary's contents. No argument array is written on the way.
-/
import proofs.«122312_j30777735643492_1_alg».proof.Proof.Gen.Kernel.Launch
import proofs.«122312_j30777735643492_1_alg».proof.Proof.Gen.Kernel.Skeleton
import proofs.«122312_j30777735643492_1_alg».proof.Proof.Gen.Kernel.Points
import proofs.«122312_j30777735643492_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.TwoCalls

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The whole-buffer rectangles the bodies load and store through -/

abbrev whole_S5000x3 : Rect S5000x3 := Rect.unit (s := S5000x3) ![0, 0] S5000x3.size inb_S5000x3_S5000x3_0_0
abbrev whole_S3x128 : Rect S3x128 := Rect.unit (s := S3x128) ![0, 0] S3x128.size inb_S3x128_S3x128_0_0
abbrev whole_S1x128 : Rect S1x128 := Rect.unit (s := S1x128) ![0, 0] S1x128.size inb_S1x128_S1x128_0_0
abbrev whole_S128x128 : Rect S128x128 := Rect.unit (s := S128x128) ![0, 0] S128x128.size inb_S128x128_S128x128_0_0
abbrev whole_S5000x128 : Rect S5000x128 := Rect.unit (s := S5000x128) ![0, 0] S5000x128.size inb_S5000x128_S5000x128_0_0
abbrev whole_S5000x131 : Rect S5000x131 := Rect.unit (s := S5000x131) ![0, 0] S5000x131.size inb_S5000x131_S5000x131_0_0
abbrev whole_S131x131 : Rect S131x131 := Rect.unit (s := S131x131) ![0, 0] S131x131.size inb_S131x131_S131x131_0_0
abbrev whole_S1x131 : Rect S1x131 := Rect.unit (s := S1x131) ![0, 0] S1x131.size inb_S1x131_S1x131_0_0
abbrev whole_S131x2 : Rect S131x2 := Rect.unit (s := S131x2) ![0, 0] S131x2.size inb_S131x2_S131x2_0_0
abbrev whole_S1x2 : Rect S1x2 := Rect.unit (s := S1x2) ![0, 0] S1x2.size inb_S1x2_S1x2_0_0
abbrev whole_S5000x2 : Rect S5000x2 := Rect.unit (s := S5000x2) ![0, 0] S5000x2.size inb_S5000x2_S5000x2_0_0

section Calls
-- the contents of the buffers outside the staging memory when a call is entered: each call's half is stated at this
-- parameter, and the run instantiates it
variable (V : (c : Dev nD) → (b : Ref sig .tc) → Buf (Elt F) ((c : Thread nD τ).loc b))

/-! # Call 0, entered at the contents `V` -/

/-- Block `t` of operand `w`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of input operand 0 holds its block at every grid point, whether the pipeline fetched it there
    or kept it from the point before (its block index did not move). -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- The staging buffer of input operand 1 holds its block at every grid point, whether the pipeline fetched it there
    or kept it from the point before (its block index did not move). -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
/-- The staging buffer of input operand 2 holds its block at every grid point, whether the pipeline fetched it there
    or kept it from the point before (its block index did not move). -/
theorem held0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
/-- The staging buffer of input operand 3 holds its block at every grid point, whether the pipeline fetched it there
    or kept it from the point before (its block index did not move). -/
theorem held0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
/-- The staging buffer of input operand 4 holds its block at every grid point, whether the pipeline fetched it there
    or kept it from the point before (its block index did not move). -/
theorem held0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)
/-- The staging buffer of input operand 5 holds its block at every grid point, whether the pipeline fetched it there
    or kept it from the point before (its block index did not move). -/
theorem held0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)
/-- The staging buffer of input operand 6 holds its block at every grid point, whether the pipeline fetched it there
    or kept it from the point before (its block index did not move). -/
theorem held0_6_of {c : Dev nD} (dat : Dat τ (Elt F) Unit ℕ (UR sig nD τ) ℕ cfg0 c) (hA : dat.A 6 = V c (Pipeline.arrRef spec0 6))
    (hafter : ∀ t, dat.after 6 t = blk0 V c 6 t) (t : Fin cfg0.N) (d) : dat.before 6 t d = blk0 V c 6 t :=
  (dat.before_in_eq_fetched 6 rfl (fun _ => rfl) (fun _ _ _ => rfl) (fun t => by rw [hafter]; unfold Dat.blockOf blk0; rw [hA]; try rfl) t d).trans
    (by unfold Dat.fetched Dat.blockOf blk0; rw [hA]; try rfl)

/-- What the body leaves in the result's staging buffer, from the blocks it loaded: its one store, of the whole block. -/
def stored0 (x0 : Vec F S5000x3 .f32) (x1 : Vec F S3x128 .f32) (x2 : Vec F S1x128 .f32) (x3 : Vec F S128x128 .f32) (x4 : Vec F S1x128 .f32) (x5 : Vec F S128x128 .f32) (x6 : Vec F S1x128 .f32) : Vec F S5000x128 .f32 :=
  View.canon [⟨whole_S5000x128, k0_pay1 (View.ld x0 whole_S5000x3) (View.ld x1 whole_S3x128) (View.ld x2 whole_S1x128) (View.ld x3 whole_S128x128) (View.ld x4 whole_S1x128) (View.ld x5 whole_S128x128) (View.ld x6 whole_S1x128)⟩]

/-- The store covers the block. -/
theorem stored0_covers (p0 : Vec F S5000x128 .f32) (y : S5000x128.Idx) :
    ∃ pc ∈ ([⟨whole_S5000x128, p0⟩] : List (View.Piece (Elt F) S5000x128 .f32)), y ∈ pc.1.set :=
  View.cover_of_tiled [⟨whole_S5000x128, p0⟩] S5000x128.size (by rfl) y

set_option maxHeartbeats 1000000 in
/-- The body on whole staging buffers: with the inputs' buffers at the contents `xW` and the result's at anything, it runs
    to the end leaving the inputs' as they were and the result's at `stored0` of them. -/
theorem body0_triple (c : Dev nD) (E : Set ℕ) (i : grid0.Coords) (arg1 : Memref sig .tc .vmem S5000x3 .f32) (harg1 : arg1.IsWhole) (arg2 : Memref sig .tc .vmem S3x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x3 .f32) (x1 : Vec F S3x128 .f32) (x2 : Vec F S1x128 .f32) (x3 : Vec F S128x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (stored0 x0 x1 x2 x3 x4 x5 x6)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (stored0_covers _)

/-- The proof data of call 0 on core `c`: the arrays as the call finds them; after the body at point `t` each input's
    buffer still at its block and the result's at `stored0` of the input blocks; nothing else touched, nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => stored0 (blk0 V c 0 t) (blk0 V c 1 t) (blk0 V c 2 t) (blk0 V c 3 t) (blk0 V c 4 t) (blk0 V c 5 t) (blk0 V c 6 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t = stored0 (blk0 V c 0 t) (blk0 V c 1 t) (blk0 V c 2 t) (blk0 V c 3 t) (blk0 V c 4 t) (blk0 V c 5 t) (blk0 V c 6 t) := by dsimp only [dat0]

theorem held0_0 (c : Dev nD) (t : Fin cfg0.N) (d) : (dat0 V c).before 0 t d = blk0 V c 0 t :=
  held0_0_of V (dat0 V c) (dat0_A V c 0) (after0_0 V c) t d
theorem held0_1 (c : Dev nD) (t : Fin cfg0.N) (d) : (dat0 V c).before 1 t d = blk0 V c 1 t :=
  held0_1_of V (dat0 V c) (dat0_A V c 1) (after0_1 V c) t d
theorem held0_2 (c : Dev nD) (t : Fin cfg0.N) (d) : (dat0 V c).before 2 t d = blk0 V c 2 t :=
  held0_2_of V (dat0 V c) (dat0_A V c 2) (after0_2 V c) t d
theorem held0_3 (c : Dev nD) (t : Fin cfg0.N) (d) : (dat0 V c).before 3 t d = blk0 V c 3 t :=
  held0_3_of V (dat0 V c) (dat0_A V c 3) (after0_3 V c) t d
theorem held0_4 (c : Dev nD) (t : Fin cfg0.N) (d) : (dat0 V c).before 4 t d = blk0 V c 4 t :=
  held0_4_of V (dat0 V c) (dat0_A V c 4) (after0_4 V c) t d
theorem held0_5 (c : Dev nD) (t : Fin cfg0.N) (d) : (dat0 V c).before 5 t d = blk0 V c 5 t :=
  held0_5_of V (dat0 V c) (dat0_A V c 5) (after0_5 V c) t d
theorem held0_6 (c : Dev nD) (t : Fin cfg0.N) (d) : (dat0 V c).before 6 t d = blk0 V c 6 t :=
  held0_6_of V (dat0 V c) (dat0_A V c 6) (after0_6 V c) t d

/-- What the body is called with at point `t`, operand by operand, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any grid point: the inputs' buffers hold their blocks, so the body's triple applies; the rest passes
    through unread. -/
theorem body0_at (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1, held0_2, held0_3, held0_4, held0_5, held0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body0_triple c Set.univ (grid0.coords t) _ _ _ _ _ _ _ _ _ _ _ _ _ _ _ _ (blk0 V c 0 t) (blk0 V c 1 t) (blk0 V c 2 t) (blk0 V c 3 t) (blk0 V c 4 t) (blk0 V c 5 t) (blk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body0_obligation (c : Dev nD) : BodyObligation (dat0 (F := F) V c) (defs₀ (F := F)) Variants.none () Set.univ := fun t => by
  rw [bigSep_W0, bigSep_W0]
  exact body0_at V c t

/-! # Call 1, entered at the contents `V` -/

/-- Block `t` of operand `w`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of input operand 0 holds its block at every grid point, whether the pipeline fetched it there
    or kept it from the point before (its block index did not move). -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- The staging buffer of input operand 1 holds its block at every grid point, whether the pipeline fetched it there
    or kept it from the point before (its block index did not move). -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
/-- The staging buffer of input operand 2 holds its block at every grid point, whether the pipeline fetched it there
    or kept it from the point before (its block index did not move). -/
theorem held1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
/-- The staging buffer of input operand 3 holds its block at every grid point, whether the pipeline fetched it there
    or kept it from the point before (its block index did not move). -/
theorem held1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
/-- The staging buffer of input operand 4 holds its block at every grid point, whether the pipeline fetched it there
    or kept it from the point before (its block index did not move). -/
theorem held1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- What the body leaves in the result's staging buffer, from the blocks it loaded: its one store, of the whole block. -/
def stored1 (x0 : Vec F S5000x131 .f32) (x1 : Vec F S131x131 .f32) (x2 : Vec F S1x131 .f32) (x3 : Vec F S131x2 .f32) (x4 : Vec F S1x2 .f32) : Vec F S5000x2 .f32 :=
  View.canon [⟨whole_S5000x2, k1_pay1 (View.ld x0 whole_S5000x131) (View.ld x1 whole_S131x131) (View.ld x2 whole_S1x131) (View.ld x3 whole_S131x2) (View.ld x4 whole_S1x2)⟩]

/-- The store covers the block. -/
theorem stored1_covers (p0 : Vec F S5000x2 .f32) (y : S5000x2.Idx) :
    ∃ pc ∈ ([⟨whole_S5000x2, p0⟩] : List (View.Piece (Elt F) S5000x2 .f32)), y ∈ pc.1.set :=
  View.cover_of_tiled [⟨whole_S5000x2, p0⟩] S5000x2.size (by rfl) y

set_option maxHeartbeats 1000000 in
/-- The body on whole staging buffers: with the inputs' buffers at the contents `xW` and the result's at anything, it runs
    to the end leaving the inputs' as they were and the result's at `stored1` of them. -/
theorem body1_triple (c : Dev nD) (E : Set ℕ) (i : grid1.Coords) (arg1 : Memref sig .tc .vmem S5000x131 .f32) (harg1 : arg1.IsWhole) (arg2 : Memref sig .tc .vmem S131x131 .f32) (harg2 : arg2.IsWhole) (arg3 : Memref sig .tc .vmem S1x131 .f32) (harg3 : arg3.IsWhole) (arg4 : Memref sig .tc .vmem S131x2 .f32) (harg4 : arg4.IsWhole) (arg5 : Memref sig .tc .vmem S1x2 .f32) (harg5 : arg5.IsWhole) (arg6 : Memref sig .tc .vmem S5000x2 .f32) (harg6 : arg6.IsWhole)
    (x0 : Vec F S5000x131 .f32) (x1 : Vec F S131x131 .f32) (x2 : Vec F S1x131 .f32) (x3 : Vec F S131x2 .f32) (x4 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (stored1 x0 x1 x2 x3 x4)) -∗ K ⟨⟩))
      ⊢ wp frame (wpE (defs₀ (F := F)) Variants.none c none) E (cc1__node_mlp_kernel i arg1 harg1 arg2 harg2 arg3 harg3 arg4 harg4 arg5 harg5 arg6 harg6) K := by
  simp only [cc1__node_mlp_kernel_eq_skeleton]; unfold cc1__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (stored1_covers _)

/-- The proof data of call 1 on core `c`: the arrays as the call finds them; after the body at point `t` each input's
    buffer still at its block and the result's at `stored1` of the input blocks; nothing else touched, nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => stored1 (blk1 V c 0 t) (blk1 V c 1 t) (blk1 V c 2 t) (blk1 V c 3 t) (blk1 V c 4 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = stored1 (blk1 V c 0 t) (blk1 V c 1 t) (blk1 V c 2 t) (blk1 V c 3 t) (blk1 V c 4 t) := by dsimp only [dat1]

theorem held1_0 (c : Dev nD) (t : Fin cfg1.N) (d) : (dat1 V c).before 0 t d = blk1 V c 0 t :=
  held1_0_of V (dat1 V c) (dat1_A V c 0) (after1_0 V c) t d
theorem held1_1 (c : Dev nD) (t : Fin cfg1.N) (d) : (dat1 V c).before 1 t d = blk1 V c 1 t :=
  held1_1_of V (dat1 V c) (dat1_A V c 1) (after1_1 V c) t d
theorem held1_2 (c : Dev nD) (t : Fin cfg1.N) (d) : (dat1 V c).before 2 t d = blk1 V c 2 t :=
  held1_2_of V (dat1 V c) (dat1_A V c 2) (after1_2 V c) t d
theorem held1_3 (c : Dev nD) (t : Fin cfg1.N) (d) : (dat1 V c).before 3 t d = blk1 V c 3 t :=
  held1_3_of V (dat1 V c) (dat1_A V c 3) (after1_3 V c) t d
theorem held1_4 (c : Dev nD) (t : Fin cfg1.N) (d) : (dat1 V c).before 4 t d = blk1 V c 4 t :=
  held1_4_of V (dat1 V c) (dat1_A V c 4) (after1_4 V c) t d

/-- What the body is called with at point `t`, operand by operand, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any grid point: the inputs' buffers hold their blocks, so the body's triple applies; the rest passes
    through unread. -/
theorem body1_at (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [held1_0, held1_1, held1_2, held1_3, held1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (body1_triple c Set.univ (grid1.coords t) _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body1_obligation (c : Dev nD) : BodyObligation (dat1 (F := F) V c) (defs₀ (F := F)) Variants.none () Set.univ := fun t => by
  rw [bigSep_W1, bigSep_W1]
  exact body1_at V c t

end Calls

/-! # The run -/

/-- Core `c`'s buffers at launch. -/
abbrev W0 : Dev nD → Valuation τ sig (Elt F) := fun c b => (s₀ m ρ).mem ((c : Dev nD), b)
/-- After the first host stretch: what call 0 is entered at. -/
abbrev W1 : Dev nD → Valuation τ sig (Elt F) := fun c => StableHlo.after hostOps0 (W0 m ρ c)
abbrev T1 : (c : Dev nD) → (b : Ref sig .tc) → Buf (Elt F) ((c : Thread nD τ).loc b) := fun c b => W1 m ρ c b
/-- After call 0: its arrays at what the pipeline leaves (an input as entered, the result with every write-back folded in),
    every other buffer as entered. -/
def W2 (c : Dev nD) : Valuation τ sig (Elt F) :=
  Pipeline.withArrays spec0 c (W1 m ρ c) fun w => (dat0 (T1 m ρ) c).arrAt w cfg0.N
theorem W2_arr (c : Dev nD) (w : Fin cfg0.W) :
    W2 m ρ c (Proc.devRef .tc (Pipeline.arrRef spec0 w)) = (dat0 (T1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev T2 : (c : Dev nD) → (b : Ref sig .tc) → Buf (Elt F) ((c : Thread nD τ).loc b) := fun c b => W2 m ρ c b
theorem left0 (c : Dev nD) (w : Fin cfg0.W) : (dat0 (T1 m ρ) c).arrAt w cfg0.N = T2 m ρ c (Pipeline.arrRef spec0 w) :=
  (W2_arr m ρ c w).symm
theorem kept0 (c : Dev nD) : ∀ b, b ∉ Finset.univ.image (Pipeline.arrRef spec0) → T2 m ρ c b = T1 m ρ c b :=
  fun b hb => W2_of_ne m ρ c b fun w e => hb (Finset.mem_image.mpr ⟨w, Finset.mem_univ _, e⟩)

/-- After the second host stretch: what call 1 is entered at. -/
abbrev W3 : Dev nD → Valuation τ sig (Elt F) := fun c => StableHlo.after hostOps1 (W2 m ρ c)
abbrev T3 : (c : Dev nD) → (b : Ref sig .tc) → Buf (Elt F) ((c : Thread nD τ).loc b) := fun c b => W3 m ρ c b
/-- After call 1, the end of the program. -/
def W4 (c : Dev nD) : Valuation τ sig (Elt F) :=
  Pipeline.withArrays spec1 c (W3 m ρ c) fun w => (dat1 (T3 m ρ) c).arrAt w cfg1.N
theorem W4_arr (c : Dev nD) (w : Fin cfg1.W) :
    W4 m ρ c (Proc.devRef .tc (Pipeline.arrRef spec1 w)) = (dat1 (T3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev T4 : (c : Dev nD) → (b : Ref sig .tc) → Buf (Elt F) ((c : Thread nD τ).loc b) := fun c b => W4 m ρ c b
theorem left1 (c : Dev nD) (w : Fin cfg1.W) : (dat1 (T3 m ρ) c).arrAt w cfg1.N = T4 m ρ c (Pipeline.arrRef spec1 w) :=
  (W4_arr m ρ c w).symm
theorem kept1 (c : Dev nD) : ∀ b, b ∉ Finset.univ.image (Pipeline.arrRef spec1) → T4 m ρ c b = T3 m ρ c b :=
  fun b hb => W4_of_ne m ρ c b fun w e => hb (Finset.mem_image.mpr ⟨w, Finset.mem_univ _, e⟩)

/-! ### A buffer no item writes keeps its launch contents; an input array of a call is handed back as entered -/

theorem W1_keeps (c : Dev nD) (r : Ref sig .tc) (h : r ∉ hostOps0_W) : W1 m ρ c (Proc.devRef .tc r) = W0 m ρ c (Proc.devRef .tc r) :=
  StableHlo.after_of_writes_sub hostOps0 _ hostOps0_writes h
theorem W3_keeps (c : Dev nD) (r : Ref sig .tc) (h : r ∉ hostOps1_W) : W3 m ρ c (Proc.devRef .tc r) = W2 m ρ c (Proc.devRef .tc r) :=
  StableHlo.after_of_writes_sub hostOps1 _ hostOps1_writes h
theorem W2_input (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (T1 m ρ) c).arrAt_in w hw _).trans (dat0_A (T1 m ρ) c w))
theorem W4_input (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (T3 m ρ) c).arrAt_in w hw _).trans (dat1_A (T3 m ρ) c w))

theorem W4_main_arg0 (c : Dev nD) : W4 m ρ c (Proc.devRef .tc main_arg0) = m ((c : Thread nD τ).loc main_arg0) :=
  (W4_of_ne m ρ c main_arg0 (by decide)).trans <| (W3_keeps m ρ c main_arg0 (by decide)).trans <| (W2_of_ne m ρ c main_arg0 (by decide)).trans <| (W1_keeps m ρ c main_arg0 (by decide)).trans rfl
theorem W4_main_arg1 (c : Dev nD) : W4 m ρ c (Proc.devRef .tc main_arg1) = m ((c : Thread nD τ).loc main_arg1) :=
  (W4_of_ne m ρ c main_arg1 (by decide)).trans <| (W3_keeps m ρ c main_arg1 (by decide)).trans <| (W2_of_ne m ρ c main_arg1 (by decide)).trans <| (W1_keeps m ρ c main_arg1 (by decide)).trans rfl
theorem W4_main_arg2 (c : Dev nD) : W4 m ρ c (Proc.devRef .tc main_arg2) = m ((c : Thread nD τ).loc main_arg2) :=
  (W4_of_ne m ρ c main_arg2 (by decide)).trans <| (W3_keeps m ρ c main_arg2 (by decide)).trans <| (W2_of_ne m ρ c main_arg2 (by decide)).trans <| (W1_keeps m ρ c main_arg2 (by decide)).trans rfl
theorem W4_main_arg3 (c : Dev nD) : W4 m ρ c (Proc.devRef .tc main_arg3) = m ((c : Thread nD τ).loc main_arg3) :=
  (W4_of_ne m ρ c main_arg3 (by decide)).trans <| (W3_keeps m ρ c main_arg3 (by decide)).trans <| (W2_of_ne m ρ c main_arg3 (by decide)).trans <| (W1_keeps m ρ c main_arg3 (by decide)).trans rfl
theorem W4_main_arg4 (c : Dev nD) : W4 m ρ c (Proc.devRef .tc main_arg4) = m ((c : Thread nD τ).loc main_arg4) :=
  (W4_of_ne m ρ c main_arg4 (by decide)).trans <| (W3_keeps m ρ c main_arg4 (by decide)).trans <| (W2_of_ne m ρ c main_arg4 (by decide)).trans <| (W1_keeps m ρ c main_arg4 (by decide)).trans rfl
theorem W4_main_arg5 (c : Dev nD) : W4 m ρ c (Proc.devRef .tc main_arg5) = m ((c : Thread nD τ).loc main_arg5) :=
  (W4_of_ne m ρ c main_arg5 (by decide)).trans <| (W3_keeps m ρ c main_arg5 (by decide)).trans <| (W2_input m ρ c 1 rfl).trans <| (W1_keeps m ρ c main_arg5 (by decide)).trans rfl
theorem W4_main_arg6 (c : Dev nD) : W4 m ρ c (Proc.devRef .tc main_arg6) = m ((c : Thread nD τ).loc main_arg6) :=
  (W4_of_ne m ρ c main_arg6 (by decide)).trans <| (W3_keeps m ρ c main_arg6 (by decide)).trans <| (W2_of_ne m ρ c main_arg6 (by decide)).trans <| (W1_keeps m ρ c main_arg6 (by decide)).trans rfl
theorem W4_main_arg7 (c : Dev nD) : W4 m ρ c (Proc.devRef .tc main_arg7) = m ((c : Thread nD τ).loc main_arg7) :=
  (W4_of_ne m ρ c main_arg7 (by decide)).trans <| (W3_keeps m ρ c main_arg7 (by decide)).trans <| (W2_input m ρ c 3 rfl).trans <| (W1_keeps m ρ c main_arg7 (by decide)).trans rfl
theorem W4_main_arg8 (c : Dev nD) : W4 m ρ c (Proc.devRef .tc main_arg8) = m ((c : Thread nD τ).loc main_arg8) :=
  (W4_of_ne m ρ c main_arg8 (by decide)).trans <| (W3_keeps m ρ c main_arg8 (by decide)).trans <| (W2_of_ne m ρ c main_arg8 (by decide)).trans <| (W1_keeps m ρ c main_arg8 (by decide)).trans rfl
theorem W4_main_arg9 (c : Dev nD) : W4 m ρ c (Proc.devRef .tc main_arg9) = m ((c : Thread nD τ).loc main_arg9) :=
  (W4_of_ne m ρ c main_arg9 (by decide)).trans <| (W3_keeps m ρ c main_arg9 (by decide)).trans <| (W2_input m ρ c 5 rfl).trans <| (W1_keeps m ρ c main_arg9 (by decide)).trans rfl
theorem W4_main_arg10 (c : Dev nD) : W4 m ρ c (Proc.devRef .tc main_arg10) = m ((c : Thread nD τ).loc main_arg10) :=
  (W4_of_ne m ρ c main_arg10 (by decide)).trans <| (W3_keeps m ρ c main_arg10 (by decide)).trans <| (W2_of_ne m ρ c main_arg10 (by decide)).trans <| (W1_keeps m ρ c main_arg10 (by decide)).trans rfl
theorem W4_main_arg11 (c : Dev nD) : W4 m ρ c (Proc.devRef .tc main_arg11) = m ((c : Thread nD τ).loc main_arg11) :=
  (W4_input m ρ c 1 rfl).trans <| (W3_keeps m ρ c main_arg11 (by decide)).trans <| (W2_of_ne m ρ c main_arg11 (by decide)).trans <| (W1_keeps m ρ c main_arg11 (by decide)).trans rfl
theorem W4_main_arg12 (c : Dev nD) : W4 m ρ c (Proc.devRef .tc main_arg12) = m ((c : Thread nD τ).loc main_arg12) :=
  (W4_of_ne m ρ c main_arg12 (by decide)).trans <| (W3_keeps m ρ c main_arg12 (by decide)).trans <| (W2_of_ne m ρ c main_arg12 (by decide)).trans <| (W1_keeps m ρ c main_arg12 (by decide)).trans rfl
theorem W4_main_arg13 (c : Dev nD) : W4 m ρ c (Proc.devRef .tc main_arg13) = m ((c : Thread nD τ).loc main_arg13) :=
  (W4_input m ρ c 3 rfl).trans <| (W3_keeps m ρ c main_arg13 (by decide)).trans <| (W2_of_ne m ρ c main_arg13 (by decide)).trans <| (W1_keeps m ρ c main_arg13 (by decide)).trans rfl
theorem W4_main_arg14 (c : Dev nD) : W4 m ρ c (Proc.devRef .tc main_arg14) = m ((c : Thread nD τ).loc main_arg14) :=
  (W4_of_ne m ρ c main_arg14 (by decide)).trans <| (W3_keeps m ρ c main_arg14 (by decide)).trans <| (W2_of_ne m ρ c main_arg14 (by decide)).trans <| (W1_keeps m ρ c main_arg14 (by decide)).trans rfl

/-! ## The proof data family and what rides beside the buffers -/

abbrev noTables : (p : Fin 2) → (pcfgs (F := F) p).Adm := fun p => (cfgs p).toPCfg_adm
/-- Each call's proof data, at the contents the call is entered at. -/
def pdat : (p : Fin 2) → (c : Dev nD) → Dat τ (Elt F) Unit ℕ (UR sig nD τ) ℕ (Pipeline.pin (pcfgs (F := F)) noTables p) c
  | ⟨0, _⟩ => fun c => dat0 (T1 m ρ) c
  | ⟨1, _⟩ => fun c => dat1 (T3 m ρ) c
abbrev 𝒱₀ : Variants := Variants.none
abbrev L : GSem nD τ sig → Finset Unit := fun _ => ∅
abbrev lv : GSem nD τ sig → Unit → ℕ := fun _ _ => 0
/-- Beside the buffers, through every item: the core's generator register at some state, and the core owing nothing. -/
abbrev Beside (c : Dev nD) : sProp 𝕄 := iprop((∃ r, prngReg c r) ∗ ∃ W, owes (c : Thread nD τ) (0 : CellTallies nD τ sig Unit) W)
/-- A host stretch as an item: its operations over the buffers outside the staging memory, from the contents `W`. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the `owes`: every buffer outside the staging memory at the last contents. -/
abbrev Tend (c : Dev nD) : sProp 𝕄 := iprop(StableHlo.held (c : Thread nD τ) (Pipeline.ucRefs τ sig) (W4 m ρ c) ∗ ∃ r, prngReg c r)

/-! ## The calls as items -/

set_option backward.isDefEq.respectTransparency.types false in
/-- Call 0: entered with every buffer outside the staging memory at `W1`, left with them at `W2`. Its arrays
    are split out of those buffers on entry and put back, at what the pipeline leaves, on exit. -/
def call0 : Pipeline.RegionSeg (pcfgs (F := F)) noTables (pdat m ρ) () defs₀ 𝒱₀ L lv 0 where
  win := launch0.win.to₀
  block_pos := launch0.block_pos
  stage_whole := launch0.stage_whole
  K := PEmpty
  osem k := k.elim
  ho := Pipeline.OwnSemFacts.none _
  hbody c := (body0_obligation (T1 m ρ) c).loose
  hwaits := Pipeline.hwaits_of_owed_zero _ _ _ _ L lv 0 fun _ _ => rfl
  pre c := iprop(StableHlo.held (c : Thread nD τ) (Pipeline.ucRefs τ sig) (W1 m ρ c) ∗ Beside c)
  post c := iprop(StableHlo.held (c : Thread nD τ) (Pipeline.ucRefs τ sig) (W2 m ρ c) ∗ Beside c)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := Pipeline.arrays_of_unscopedBufs (p := 0) (pcfgs (F := F)) noTables (pdat m ρ) launch0.win launch0.arr_whole c
      ((pdat m ρ 0 c).share_full fun _ => rfl) (T1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdat m ρ) ((pdat m ρ 0 c).share_full fun _ => rfl)
      (T1 m ρ c) (T2 m ρ c) ((pdat m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1: entered with every buffer outside the staging memory at `W3`, left with them at `W4`. Its arrays
    are split out of those buffers on entry and put back, at what the pipeline leaves, on exit. -/
def call1 : Pipeline.RegionSeg (pcfgs (F := F)) noTables (pdat m ρ) () defs₀ 𝒱₀ L lv 1 where
  win := launch1.win.to₀
  block_pos := launch1.block_pos
  stage_whole := launch1.stage_whole
  K := PEmpty
  osem k := k.elim
  ho := Pipeline.OwnSemFacts.none _
  hbody c := (body1_obligation (T3 m ρ) c).loose
  hwaits := Pipeline.hwaits_of_owed_zero _ _ _ _ L lv 1 fun _ _ => rfl
  pre c := iprop(StableHlo.held (c : Thread nD τ) (Pipeline.ucRefs τ sig) (W3 m ρ c) ∗ Beside c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (T3 m ρ c)
  hentry c := by
    rw [Pipeline.ownSems0_none]
    have hsplit := Pipeline.arrays_of_unscopedBufs (p := 1) (pcfgs (F := F)) noTables (pdat m ρ) launch1.win launch1.arr_whole c
      ((pdat m ρ 1 c).share_full fun _ => rfl) (T3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdat m ρ) ((pdat m ρ 1 c).share_full fun _ => rfl)
      (T3 m ρ c) (T4 m ρ c) ((pdat m ρ 1 c).arrAt · cfg1.N) (left1 m ρ c) (kept1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four items, and the launch -/

abbrev items : List (Pipeline.Seg (pcfgs (F := F)) noTables (pdat m ρ) () defs₀ 𝒱₀ L lv) :=
  [ .host (hostItem hostOps0 hostOps0_sub hostOps0_fresh (W0 m ρ)),
    .region (call0 m ρ),
    .host (hostItem hostOps1 hostOps1_sub hostOps1_fresh (W2 m ρ)),
    .region (call1 m ρ) ]
theorem main_items (c : Dev nD) : main (F := F) c = Pipeline.Seg.run (items m ρ) := (main_chain c).trans (by chain_rfl)

set_option backward.isDefEq.respectTransparency.types false in
/-- Every weakly fair execution of the program from the memory `m` with zero counters terminates, nothing faulting, and in
    every final state each buffer outside the staging memory holds the last boundary's contents `W4`. -/
theorem run_to_end : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) noTables (pdat m ρ) () cellOf_inj emb₁ defs₀ 𝒱₀ L lv m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Beside c)) (Tₙ := Tend m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends holding its launch contents. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c)⟩) (run_to_end m ρ)

end Cert.Kernel.TwoCalls

end
-- ==== Proof.KIRun.lean ====
/-
  The run of a program that calls two block-pipelined kernels between stretches of host operations, followed from the
  launch to the return, at any float instance.

  Each call walks a one-axis grid. At a grid point the pipeline hands the body one block of its first operand (a stretch
  of 5000 consecutive rows) and the whole of every other operand (the weight matrices and the bias rows, which are a
  single block each), and the body stores one whole block of the result: the same stretch of 5000 rows. The body's stored
  value is one pure function of the blocks it loads; it also loads the result block first and discards what it read.

  What is proved here: the contents of every buffer outside the staging memory at each boundary between two items of the
  program (a fold from the launch memory: a host stretch applies its operations, a call replaces its result array by what
  its write-backs leave and keeps everything else), that every execution reaches the end without a fault, and that the
  final memory is the last boundary's contents. No argument array is written on the way.
-/
import proofs.«122312_j30777735643492_1_alg».proof.Proof.Gen.KernelIdeal.Launch
import proofs.«122312_j30777735643492_1_alg».proof.Proof.Gen.KernelIdeal.Skeleton
import proofs.«122312_j30777735643492_1_alg».proof.Proof.Gen.KernelIdeal.Points
import proofs.«122312_j30777735643492_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.TwoCalls

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The whole-buffer rectangles the bodies load and store through -/

abbrev whole_S5000x3 : Rect S5000x3 := Rect.unit (s := S5000x3) ![0, 0] S5000x3.size inb_S5000x3_S5000x3_0_0
abbrev whole_S3x128 : Rect S3x128 := Rect.unit (s := S3x128) ![0, 0] S3x128.size inb_S3x128_S3x128_0_0
abbrev whole_S1x128 : Rect S1x128 := Rect.unit (s := S1x128) ![0, 0] S1x128.size inb_S1x128_S1x128_0_0
abbrev whole_S128x128 : Rect S128x128 := Rect.unit (s := S128x128) ![0, 0] S128x128.size inb_S128x128_S128x128_0_0
abbrev whole_S5000x128 : Rect S5000x128 := Rect.unit (s := S5000x128) ![0, 0] S5000x128.size inb_S5000x128_S5000x128_0_0
abbrev whole_S5000x131 : Rect S5000x131 := Rect.unit (s := S5000x131) ![0, 0] S5000x131.size inb_S5000x131_S5000x131_0_0
abbrev whole_S131x131 : Rect S131x131 := Rect.unit (s := S131x131) ![0, 0] S131x131.size inb_S131x131_S131x131_0_0
abbrev whole_S1x131 : Rect S1x131 := Rect.unit (s := S1x131) ![0, 0] S1x131.size inb_S1x131_S1x131_0_0
abbrev whole_S131x2 : Rect S131x2 := Rect.unit (s := S131x2) ![0, 0] S131x2.size inb_S131x2_S131x2_0_0
abbrev whole_S1x2 : Rect S1x2 := Rect.unit (s := S1x2) ![0, 0] S1x2.size inb_S1x2_S1x2_0_0
abbrev whole_S5000x2 : Rect S5000x2 := Rect.unit (s := S5000x2) ![0, 0] S5000x2.size inb_S5000x2_S5000x2_0_0

section Calls
-- the contents of the buffers outside the staging memory when a call is entered: each call's half is stated at this
-- parameter, and the run instantiates it
variable (V : (c : Dev nD) → (b : Ref sig .tc) → Buf (Elt F) ((c : Thread nD τ).loc b))

/-! # Call 0, entered at the contents `V` -/

/-- Block `t` of operand `w`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of input operand 0 holds its block at every grid point, whether the pipeline fetched it there
    or kept it from the point before (its block index did not move). -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- The staging buffer of input operand 1 holds its block at every grid point, whether the pipeline fetched it there
    or kept it from the point before (its block index did not move). -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
/-- The staging buffer of input operand 2 holds its block at every grid point, whether the pipeline fetched it there
    or kept it from the point before (its block index did not move). -/
theorem held0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
/-- The staging buffer of input operand 3 holds its block at every grid point, whether the pipeline fetched it there
    or kept it from the point before (its block index did not move). -/
theorem held0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
/-- The staging buffer of input operand 4 holds its block at every grid point, whether the pipeline fetched it there
    or kept it from the point before (its block index did not move). -/
theorem held0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)
/-- The staging buffer of input operand 5 holds its block at every grid point, whether the pipeline fetched it there
    or kept it from the point before (its block index did not move). -/
theorem held0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)
/-- The staging buffer of input operand 6 holds its block at every grid point, whether the pipeline fetched it there
    or kept it from the point before (its block index did not move). -/
theorem held0_6_of {c : Dev nD} (dat : Dat τ (Elt F) Unit ℕ (UR sig nD τ) ℕ cfg0 c) (hA : dat.A 6 = V c (Pipeline.arrRef spec0 6))
    (hafter : ∀ t, dat.after 6 t = blk0 V c 6 t) (t : Fin cfg0.N) (d) : dat.before 6 t d = blk0 V c 6 t :=
  (dat.before_in_eq_fetched 6 rfl (fun _ => rfl) (fun _ _ _ => rfl) (fun t => by rw [hafter]; unfold Dat.blockOf blk0; rw [hA]; try rfl) t d).trans
    (by unfold Dat.fetched Dat.blockOf blk0; rw [hA]; try rfl)

/-- What the body leaves in the result's staging buffer, from the blocks it loaded: its one store, of the whole block. -/
def stored0 (x0 : Vec F S5000x3 .f32) (x1 : Vec F S3x128 .f32) (x2 : Vec F S1x128 .f32) (x3 : Vec F S128x128 .f32) (x4 : Vec F S1x128 .f32) (x5 : Vec F S128x128 .f32) (x6 : Vec F S1x128 .f32) : Vec F S5000x128 .f32 :=
  View.canon [⟨whole_S5000x128, k0_pay1 (View.ld x0 whole_S5000x3) (View.ld x1 whole_S3x128) (View.ld x2 whole_S1x128) (View.ld x3 whole_S128x128) (View.ld x4 whole_S1x128) (View.ld x5 whole_S128x128) (View.ld x6 whole_S1x128)⟩]

/-- The store covers the block. -/
theorem stored0_covers (p0 : Vec F S5000x128 .f32) (y : S5000x128.Idx) :
    ∃ pc ∈ ([⟨whole_S5000x128, p0⟩] : List (View.Piece (Elt F) S5000x128 .f32)), y ∈ pc.1.set :=
  View.cover_of_tiled [⟨whole_S5000x128, p0⟩] S5000x128.size (by rfl) y

set_option maxHeartbeats 1000000 in
/-- The body on whole staging buffers: with the inputs' buffers at the contents `xW` and the result's at anything, it runs
    to the end leaving the inputs' as they were and the result's at `stored0` of them. -/
theorem body0_triple (c : Dev nD) (E : Set ℕ) (i : grid0.Coords) (arg1 : Memref sig .tc .vmem S5000x3 .f32) (harg1 : arg1.IsWhole) (arg2 : Memref sig .tc .vmem S3x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x3 .f32) (x1 : Vec F S3x128 .f32) (x2 : Vec F S1x128 .f32) (x3 : Vec F S128x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (stored0 x0 x1 x2 x3 x4 x5 x6)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (stored0_covers _)

/-- The proof data of call 0 on core `c`: the arrays as the call finds them; after the body at point `t` each input's
    buffer still at its block and the result's at `stored0` of the input blocks; nothing else touched, nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => stored0 (blk0 V c 0 t) (blk0 V c 1 t) (blk0 V c 2 t) (blk0 V c 3 t) (blk0 V c 4 t) (blk0 V c 5 t) (blk0 V c 6 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t = stored0 (blk0 V c 0 t) (blk0 V c 1 t) (blk0 V c 2 t) (blk0 V c 3 t) (blk0 V c 4 t) (blk0 V c 5 t) (blk0 V c 6 t) := by dsimp only [dat0]

theorem held0_0 (c : Dev nD) (t : Fin cfg0.N) (d) : (dat0 V c).before 0 t d = blk0 V c 0 t :=
  held0_0_of V (dat0 V c) (dat0_A V c 0) (after0_0 V c) t d
theorem held0_1 (c : Dev nD) (t : Fin cfg0.N) (d) : (dat0 V c).before 1 t d = blk0 V c 1 t :=
  held0_1_of V (dat0 V c) (dat0_A V c 1) (after0_1 V c) t d
theorem held0_2 (c : Dev nD) (t : Fin cfg0.N) (d) : (dat0 V c).before 2 t d = blk0 V c 2 t :=
  held0_2_of V (dat0 V c) (dat0_A V c 2) (after0_2 V c) t d
theorem held0_3 (c : Dev nD) (t : Fin cfg0.N) (d) : (dat0 V c).before 3 t d = blk0 V c 3 t :=
  held0_3_of V (dat0 V c) (dat0_A V c 3) (after0_3 V c) t d
theorem held0_4 (c : Dev nD) (t : Fin cfg0.N) (d) : (dat0 V c).before 4 t d = blk0 V c 4 t :=
  held0_4_of V (dat0 V c) (dat0_A V c 4) (after0_4 V c) t d
theorem held0_5 (c : Dev nD) (t : Fin cfg0.N) (d) : (dat0 V c).before 5 t d = blk0 V c 5 t :=
  held0_5_of V (dat0 V c) (dat0_A V c 5) (after0_5 V c) t d
theorem held0_6 (c : Dev nD) (t : Fin cfg0.N) (d) : (dat0 V c).before 6 t d = blk0 V c 6 t :=
  held0_6_of V (dat0 V c) (dat0_A V c 6) (after0_6 V c) t d

/-- What the body is called with at point `t`, operand by operand, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any grid point: the inputs' buffers hold their blocks, so the body's triple applies; the rest passes
    through unread. -/
theorem body0_at (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1, held0_2, held0_3, held0_4, held0_5, held0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body0_triple c Set.univ (grid0.coords t) _ _ _ _ _ _ _ _ _ _ _ _ _ _ _ _ (blk0 V c 0 t) (blk0 V c 1 t) (blk0 V c 2 t) (blk0 V c 3 t) (blk0 V c 4 t) (blk0 V c 5 t) (blk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body0_obligation (c : Dev nD) : BodyObligation (dat0 (F := F) V c) (defs₀ (F := F)) Variants.none () Set.univ := fun t => by
  rw [bigSep_W0, bigSep_W0]
  exact body0_at V c t

/-! # Call 1, entered at the contents `V` -/

/-- Block `t` of operand `w`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of input operand 0 holds its block at every grid point, whether the pipeline fetched it there
    or kept it from the point before (its block index did not move). -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- The staging buffer of input operand 1 holds its block at every grid point, whether the pipeline fetched it there
    or kept it from the point before (its block index did not move). -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
/-- The staging buffer of input operand 2 holds its block at every grid point, whether the pipeline fetched it there
    or kept it from the point before (its block index did not move). -/
theorem held1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
/-- The staging buffer of input operand 3 holds its block at every grid point, whether the pipeline fetched it there
    or kept it from the point before (its block index did not move). -/
theorem held1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
/-- The staging buffer of input operand 4 holds its block at every grid point, whether the pipeline fetched it there
    or kept it from the point before (its block index did not move). -/
theorem held1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- What the body leaves in the result's staging buffer, from the blocks it loaded: its one store, of the whole block. -/
def stored1 (x0 : Vec F S5000x131 .f32) (x1 : Vec F S131x131 .f32) (x2 : Vec F S1x131 .f32) (x3 : Vec F S131x2 .f32) (x4 : Vec F S1x2 .f32) : Vec F S5000x2 .f32 :=
  View.canon [⟨whole_S5000x2, k1_pay1 (View.ld x0 whole_S5000x131) (View.ld x1 whole_S131x131) (View.ld x2 whole_S1x131) (View.ld x3 whole_S131x2) (View.ld x4 whole_S1x2)⟩]

/-- The store covers the block. -/
theorem stored1_covers (p0 : Vec F S5000x2 .f32) (y : S5000x2.Idx) :
    ∃ pc ∈ ([⟨whole_S5000x2, p0⟩] : List (View.Piece (Elt F) S5000x2 .f32)), y ∈ pc.1.set :=
  View.cover_of_tiled [⟨whole_S5000x2, p0⟩] S5000x2.size (by rfl) y

set_option maxHeartbeats 1000000 in
/-- The body on whole staging buffers: with the inputs' buffers at the contents `xW` and the result's at anything, it runs
    to the end leaving the inputs' as they were and the result's at `stored1` of them. -/
theorem body1_triple (c : Dev nD) (E : Set ℕ) (i : grid1.Coords) (arg1 : Memref sig .tc .vmem S5000x131 .f32) (harg1 : arg1.IsWhole) (arg2 : Memref sig .tc .vmem S131x131 .f32) (harg2 : arg2.IsWhole) (arg3 : Memref sig .tc .vmem S1x131 .f32) (harg3 : arg3.IsWhole) (arg4 : Memref sig .tc .vmem S131x2 .f32) (harg4 : arg4.IsWhole) (arg5 : Memref sig .tc .vmem S1x2 .f32) (harg5 : arg5.IsWhole) (arg6 : Memref sig .tc .vmem S5000x2 .f32) (harg6 : arg6.IsWhole)
    (x0 : Vec F S5000x131 .f32) (x1 : Vec F S131x131 .f32) (x2 : Vec F S1x131 .f32) (x3 : Vec F S131x2 .f32) (x4 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (stored1 x0 x1 x2 x3 x4)) -∗ K ⟨⟩))
      ⊢ wp frame (wpE (defs₀ (F := F)) Variants.none c none) E (cc1__node_mlp_kernel i arg1 harg1 arg2 harg2 arg3 harg3 arg4 harg4 arg5 harg5 arg6 harg6) K := by
  simp only [cc1__node_mlp_kernel_eq_skeleton]; unfold cc1__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (stored1_covers _)

/-- The proof data of call 1 on core `c`: the arrays as the call finds them; after the body at point `t` each input's
    buffer still at its block and the result's at `stored1` of the input blocks; nothing else touched, nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => stored1 (blk1 V c 0 t) (blk1 V c 1 t) (blk1 V c 2 t) (blk1 V c 3 t) (blk1 V c 4 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = stored1 (blk1 V c 0 t) (blk1 V c 1 t) (blk1 V c 2 t) (blk1 V c 3 t) (blk1 V c 4 t) := by dsimp only [dat1]

theorem held1_0 (c : Dev nD) (t : Fin cfg1.N) (d) : (dat1 V c).before 0 t d = blk1 V c 0 t :=
  held1_0_of V (dat1 V c) (dat1_A V c 0) (after1_0 V c) t d
theorem held1_1 (c : Dev nD) (t : Fin cfg1.N) (d) : (dat1 V c).before 1 t d = blk1 V c 1 t :=
  held1_1_of V (dat1 V c) (dat1_A V c 1) (after1_1 V c) t d
theorem held1_2 (c : Dev nD) (t : Fin cfg1.N) (d) : (dat1 V c).before 2 t d = blk1 V c 2 t :=
  held1_2_of V (dat1 V c) (dat1_A V c 2) (after1_2 V c) t d
theorem held1_3 (c : Dev nD) (t : Fin cfg1.N) (d) : (dat1 V c).before 3 t d = blk1 V c 3 t :=
  held1_3_of V (dat1 V c) (dat1_A V c 3) (after1_3 V c) t d
theorem held1_4 (c : Dev nD) (t : Fin cfg1.N) (d) : (dat1 V c).before 4 t d = blk1 V c 4 t :=
  held1_4_of V (dat1 V c) (dat1_A V c 4) (after1_4 V c) t d

/-- What the body is called with at point `t`, operand by operand, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any grid point: the inputs' buffers hold their blocks, so the body's triple applies; the rest passes
    through unread. -/
theorem body1_at (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [held1_0, held1_1, held1_2, held1_3, held1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (body1_triple c Set.univ (grid1.coords t) _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body1_obligation (c : Dev nD) : BodyObligation (dat1 (F := F) V c) (defs₀ (F := F)) Variants.none () Set.univ := fun t => by
  rw [bigSep_W1, bigSep_W1]
  exact body1_at V c t

end Calls

/-! # The run -/

/-- Core `c`'s buffers at launch. -/
abbrev W0 : Dev nD → Valuation τ sig (Elt F) := fun c b => (s₀ m ρ).mem ((c : Dev nD), b)
/-- After the first host stretch: what call 0 is entered at. -/
abbrev W1 : Dev nD → Valuation τ sig (Elt F) := fun c => StableHlo.after hostOps0 (W0 m ρ c)
abbrev T1 : (c : Dev nD) → (b : Ref sig .tc) → Buf (Elt F) ((c : Thread nD τ).loc b) := fun c b => W1 m ρ c b
/-- After call 0: its arrays at what the pipeline leaves (an input as entered, the result with every write-back folded in),
    every other buffer as entered. -/
def W2 (c : Dev nD) : Valuation τ sig (Elt F) :=
  Pipeline.withArrays spec0 c (W1 m ρ c) fun w => (dat0 (T1 m ρ) c).arrAt w cfg0.N
theorem W2_arr (c : Dev nD) (w : Fin cfg0.W) :
    W2 m ρ c (Proc.devRef .tc (Pipeline.arrRef spec0 w)) = (dat0 (T1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev T2 : (c : Dev nD) → (b : Ref sig .tc) → Buf (Elt F) ((c : Thread nD τ).loc b) := fun c b => W2 m ρ c b
theorem left0 (c : Dev nD) (w : Fin cfg0.W) : (dat0 (T1 m ρ) c).arrAt w cfg0.N = T2 m ρ c (Pipeline.arrRef spec0 w) :=
  (W2_arr m ρ c w).symm
theorem kept0 (c : Dev nD) : ∀ b, b ∉ Finset.univ.image (Pipeline.arrRef spec0) → T2 m ρ c b = T1 m ρ c b :=
  fun b hb => W2_of_ne m ρ c b fun w e => hb (Finset.mem_image.mpr ⟨w, Finset.mem_univ _, e⟩)

/-- After the second host stretch: what call 1 is entered at. -/
abbrev W3 : Dev nD → Valuation τ sig (Elt F) := fun c => StableHlo.after hostOps1 (W2 m ρ c)
abbrev T3 : (c : Dev nD) → (b : Ref sig .tc) → Buf (Elt F) ((c : Thread nD τ).loc b) := fun c b => W3 m ρ c b
/-- After call 1, the end of the program. -/
def W4 (c : Dev nD) : Valuation τ sig (Elt F) :=
  Pipeline.withArrays spec1 c (W3 m ρ c) fun w => (dat1 (T3 m ρ) c).arrAt w cfg1.N
theorem W4_arr (c : Dev nD) (w : Fin cfg1.W) :
    W4 m ρ c (Proc.devRef .tc (Pipeline.arrRef spec1 w)) = (dat1 (T3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev T4 : (c : Dev nD) → (b : Ref sig .tc) → Buf (Elt F) ((c : Thread nD τ).loc b) := fun c b => W4 m ρ c b
theorem left1 (c : Dev nD) (w : Fin cfg1.W) : (dat1 (T3 m ρ) c).arrAt w cfg1.N = T4 m ρ c (Pipeline.arrRef spec1 w) :=
  (W4_arr m ρ c w).symm
theorem kept1 (c : Dev nD) : ∀ b, b ∉ Finset.univ.image (Pipeline.arrRef spec1) → T4 m ρ c b = T3 m ρ c b :=
  fun b hb => W4_of_ne m ρ c b fun w e => hb (Finset.mem_image.mpr ⟨w, Finset.mem_univ _, e⟩)

/-! ### A buffer no item writes keeps its launch contents; an input array of a call is handed back as entered -/

theorem W1_keeps (c : Dev nD) (r : Ref sig .tc) (h : r ∉ hostOps0_W) : W1 m ρ c (Proc.devRef .tc r) = W0 m ρ c (Proc.devRef .tc r) :=
  StableHlo.after_of_writes_sub hostOps0 _ hostOps0_writes h
theorem W3_keeps (c : Dev nD) (r : Ref sig .tc) (h : r ∉ hostOps1_W) : W3 m ρ c (Proc.devRef .tc r) = W2 m ρ c (Proc.devRef .tc r) :=
  StableHlo.after_of_writes_sub hostOps1 _ hostOps1_writes h
theorem W2_input (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (T1 m ρ) c).arrAt_in w hw _).trans (dat0_A (T1 m ρ) c w))
theorem W4_input (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (T3 m ρ) c).arrAt_in w hw _).trans (dat1_A (T3 m ρ) c w))

theorem W4_main_arg0 (c : Dev nD) : W4 m ρ c (Proc.devRef .tc main_arg0) = m ((c : Thread nD τ).loc main_arg0) :=
  (W4_of_ne m ρ c main_arg0 (by decide)).trans <| (W3_keeps m ρ c main_arg0 (by decide)).trans <| (W2_of_ne m ρ c main_arg0 (by decide)).trans <| (W1_keeps m ρ c main_arg0 (by decide)).trans rfl
theorem W4_main_arg1 (c : Dev nD) : W4 m ρ c (Proc.devRef .tc main_arg1) = m ((c : Thread nD τ).loc main_arg1) :=
  (W4_of_ne m ρ c main_arg1 (by decide)).trans <| (W3_keeps m ρ c main_arg1 (by decide)).trans <| (W2_of_ne m ρ c main_arg1 (by decide)).trans <| (W1_keeps m ρ c main_arg1 (by decide)).trans rfl
theorem W4_main_arg2 (c : Dev nD) : W4 m ρ c (Proc.devRef .tc main_arg2) = m ((c : Thread nD τ).loc main_arg2) :=
  (W4_of_ne m ρ c main_arg2 (by decide)).trans <| (W3_keeps m ρ c main_arg2 (by decide)).trans <| (W2_of_ne m ρ c main_arg2 (by decide)).trans <| (W1_keeps m ρ c main_arg2 (by decide)).trans rfl
theorem W4_main_arg3 (c : Dev nD) : W4 m ρ c (Proc.devRef .tc main_arg3) = m ((c : Thread nD τ).loc main_arg3) :=
  (W4_of_ne m ρ c main_arg3 (by decide)).trans <| (W3_keeps m ρ c main_arg3 (by decide)).trans <| (W2_of_ne m ρ c main_arg3 (by decide)).trans <| (W1_keeps m ρ c main_arg3 (by decide)).trans rfl
theorem W4_main_arg4 (c : Dev nD) : W4 m ρ c (Proc.devRef .tc main_arg4) = m ((c : Thread nD τ).loc main_arg4) :=
  (W4_of_ne m ρ c main_arg4 (by decide)).trans <| (W3_keeps m ρ c main_arg4 (by decide)).trans <| (W2_of_ne m ρ c main_arg4 (by decide)).trans <| (W1_keeps m ρ c main_arg4 (by decide)).trans rfl
theorem W4_main_arg5 (c : Dev nD) : W4 m ρ c (Proc.devRef .tc main_arg5) = m ((c : Thread nD τ).loc main_arg5) :=
  (W4_of_ne m ρ c main_arg5 (by decide)).trans <| (W3_keeps m ρ c main_arg5 (by decide)).trans <| (W2_input m ρ c 1 rfl).trans <| (W1_keeps m ρ c main_arg5 (by decide)).trans rfl
theorem W4_main_arg6 (c : Dev nD) : W4 m ρ c (Proc.devRef .tc main_arg6) = m ((c : Thread nD τ).loc main_arg6) :=
  (W4_of_ne m ρ c main_arg6 (by decide)).trans <| (W3_keeps m ρ c main_arg6 (by decide)).trans <| (W2_of_ne m ρ c main_arg6 (by decide)).trans <| (W1_keeps m ρ c main_arg6 (by decide)).trans rfl
theorem W4_main_arg7 (c : Dev nD) : W4 m ρ c (Proc.devRef .tc main_arg7) = m ((c : Thread nD τ).loc main_arg7) :=
  (W4_of_ne m ρ c main_arg7 (by decide)).trans <| (W3_keeps m ρ c main_arg7 (by decide)).trans <| (W2_input m ρ c 3 rfl).trans <| (W1_keeps m ρ c main_arg7 (by decide)).trans rfl
theorem W4_main_arg8 (c : Dev nD) : W4 m ρ c (Proc.devRef .tc main_arg8) = m ((c : Thread nD τ).loc main_arg8) :=
  (W4_of_ne m ρ c main_arg8 (by decide)).trans <| (W3_keeps m ρ c main_arg8 (by decide)).trans <| (W2_of_ne m ρ c main_arg8 (by decide)).trans <| (W1_keeps m ρ c main_arg8 (by decide)).trans rfl
theorem W4_main_arg9 (c : Dev nD) : W4 m ρ c (Proc.devRef .tc main_arg9) = m ((c : Thread nD τ).loc main_arg9) :=
  (W4_of_ne m ρ c main_arg9 (by decide)).trans <| (W3_keeps m ρ c main_arg9 (by decide)).trans <| (W2_input m ρ c 5 rfl).trans <| (W1_keeps m ρ c main_arg9 (by decide)).trans rfl
theorem W4_main_arg10 (c : Dev nD) : W4 m ρ c (Proc.devRef .tc main_arg10) = m ((c : Thread nD τ).loc main_arg10) :=
  (W4_of_ne m ρ c main_arg10 (by decide)).trans <| (W3_keeps m ρ c main_arg10 (by decide)).trans <| (W2_of_ne m ρ c main_arg10 (by decide)).trans <| (W1_keeps m ρ c main_arg10 (by decide)).trans rfl
theorem W4_main_arg11 (c : Dev nD) : W4 m ρ c (Proc.devRef .tc main_arg11) = m ((c : Thread nD τ).loc main_arg11) :=
  (W4_input m ρ c 1 rfl).trans <| (W3_keeps m ρ c main_arg11 (by decide)).trans <| (W2_of_ne m ρ c main_arg11 (by decide)).trans <| (W1_keeps m ρ c main_arg11 (by decide)).trans rfl
theorem W4_main_arg12 (c : Dev nD) : W4 m ρ c (Proc.devRef .tc main_arg12) = m ((c : Thread nD τ).loc main_arg12) :=
  (W4_of_ne m ρ c main_arg12 (by decide)).trans <| (W3_keeps m ρ c main_arg12 (by decide)).trans <| (W2_of_ne m ρ c main_arg12 (by decide)).trans <| (W1_keeps m ρ c main_arg12 (by decide)).trans rfl
theorem W4_main_arg13 (c : Dev nD) : W4 m ρ c (Proc.devRef .tc main_arg13) = m ((c : Thread nD τ).loc main_arg13) :=
  (W4_input m ρ c 3 rfl).trans <| (W3_keeps m ρ c main_arg13 (by decide)).trans <| (W2_of_ne m ρ c main_arg13 (by decide)).trans <| (W1_keeps m ρ c main_arg13 (by decide)).trans rfl
theorem W4_main_arg14 (c : Dev nD) : W4 m ρ c (Proc.devRef .tc main_arg14) = m ((c : Thread nD τ).loc main_arg14) :=
  (W4_of_ne m ρ c main_arg14 (by decide)).trans <| (W3_keeps m ρ c main_arg14 (by decide)).trans <| (W2_of_ne m ρ c main_arg14 (by decide)).trans <| (W1_keeps m ρ c main_arg14 (by decide)).trans rfl

/-! ## The proof data family and what rides beside the buffers -/

abbrev noTables : (p : Fin 2) → (pcfgs (F := F) p).Adm := fun p => (cfgs p).toPCfg_adm
/-- Each call's proof data, at the contents the call is entered at. -/
def pdat : (p : Fin 2) → (c : Dev nD) → Dat τ (Elt F) Unit ℕ (UR sig nD τ) ℕ (Pipeline.pin (pcfgs (F := F)) noTables p) c
  | ⟨0, _⟩ => fun c => dat0 (T1 m ρ) c
  | ⟨1, _⟩ => fun c => dat1 (T3 m ρ) c
abbrev 𝒱₀ : Variants := Variants.none
abbrev L : GSem nD τ sig → Finset Unit := fun _ => ∅
abbrev lv : GSem nD τ sig → Unit → ℕ := fun _ _ => 0
/-- Beside the buffers, through every item: the core's generator register at some state, and the core owing nothing. -/
abbrev Beside (c : Dev nD) : sProp 𝕄 := iprop((∃ r, prngReg c r) ∗ ∃ W, owes (c : Thread nD τ) (0 : CellTallies nD τ sig Unit) W)
/-- A host stretch as an item: its operations over the buffers outside the staging memory, from the contents `W`. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the `owes`: every buffer outside the staging memory at the last contents. -/
abbrev Tend (c : Dev nD) : sProp 𝕄 := iprop(StableHlo.held (c : Thread nD τ) (Pipeline.ucRefs τ sig) (W4 m ρ c) ∗ ∃ r, prngReg c r)

/-! ## The calls as items -/

set_option backward.isDefEq.respectTransparency.types false in
/-- Call 0: entered with every buffer outside the staging memory at `W1`, left with them at `W2`. Its arrays
    are split out of those buffers on entry and put back, at what the pipeline leaves, on exit. -/
def call0 : Pipeline.RegionSeg (pcfgs (F := F)) noTables (pdat m ρ) () defs₀ 𝒱₀ L lv 0 where
  win := launch0.win.to₀
  block_pos := launch0.block_pos
  stage_whole := launch0.stage_whole
  K := PEmpty
  osem k := k.elim
  ho := Pipeline.OwnSemFacts.none _
  hbody c := (body0_obligation (T1 m ρ) c).loose
  hwaits := Pipeline.hwaits_of_owed_zero _ _ _ _ L lv 0 fun _ _ => rfl
  pre c := iprop(StableHlo.held (c : Thread nD τ) (Pipeline.ucRefs τ sig) (W1 m ρ c) ∗ Beside c)
  post c := iprop(StableHlo.held (c : Thread nD τ) (Pipeline.ucRefs τ sig) (W2 m ρ c) ∗ Beside c)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := Pipeline.arrays_of_unscopedBufs (p := 0) (pcfgs (F := F)) noTables (pdat m ρ) launch0.win launch0.arr_whole c
      ((pdat m ρ 0 c).share_full fun _ => rfl) (T1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdat m ρ) ((pdat m ρ 0 c).share_full fun _ => rfl)
      (T1 m ρ c) (T2 m ρ c) ((pdat m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1: entered with every buffer outside the staging memory at `W3`, left with them at `W4`. Its arrays
    are split out of those buffers on entry and put back, at what the pipeline leaves, on exit. -/
def call1 : Pipeline.RegionSeg (pcfgs (F := F)) noTables (pdat m ρ) () defs₀ 𝒱₀ L lv 1 where
  win := launch1.win.to₀
  block_pos := launch1.block_pos
  stage_whole := launch1.stage_whole
  K := PEmpty
  osem k := k.elim
  ho := Pipeline.OwnSemFacts.none _
  hbody c := (body1_obligation (T3 m ρ) c).loose
  hwaits := Pipeline.hwaits_of_owed_zero _ _ _ _ L lv 1 fun _ _ => rfl
  pre c := iprop(StableHlo.held (c : Thread nD τ) (Pipeline.ucRefs τ sig) (W3 m ρ c) ∗ Beside c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (T3 m ρ c)
  hentry c := by
    rw [Pipeline.ownSems0_none]
    have hsplit := Pipeline.arrays_of_unscopedBufs (p := 1) (pcfgs (F := F)) noTables (pdat m ρ) launch1.win launch1.arr_whole c
      ((pdat m ρ 1 c).share_full fun _ => rfl) (T3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdat m ρ) ((pdat m ρ 1 c).share_full fun _ => rfl)
      (T3 m ρ c) (T4 m ρ c) ((pdat m ρ 1 c).arrAt · cfg1.N) (left1 m ρ c) (kept1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four items, and the launch -/

abbrev items : List (Pipeline.Seg (pcfgs (F := F)) noTables (pdat m ρ) () defs₀ 𝒱₀ L lv) :=
  [ .host (hostItem hostOps0 hostOps0_sub hostOps0_fresh (W0 m ρ)),
    .region (call0 m ρ),
    .host (hostItem hostOps1 hostOps1_sub hostOps1_fresh (W2 m ρ)),
    .region (call1 m ρ) ]
theorem main_items (c : Dev nD) : main (F := F) c = Pipeline.Seg.run (items m ρ) := (main_chain c).trans (by chain_rfl)

set_option backward.isDefEq.respectTransparency.types false in
/-- Every weakly fair execution of the program from the memory `m` with zero counters terminates, nothing faulting, and in
    every final state each buffer outside the staging memory holds the last boundary's contents `W4`. -/
theorem run_to_end : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) noTables (pdat m ρ) () cellOf_inj emb₁ defs₀ 𝒱₀ L lv m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Beside c)) (Tₙ := Tend m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends holding its launch contents. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c)⟩) (run_to_end m ρ)

end Cert.KernelIdeal.TwoCalls

end
-- ==== Proof.LibMlpAt.lean ====
/-
  The two-layer perceptron with rectifiers, read at one entry.

  For matrices x : [N, K], wa : [K, D], wb : [D, D] and one-row biases ba, bb : [1, D] the value at (r, q) is
      max (∑ j, max (∑ i, x[r,i] · wa[i,j] + ba[0,j]) 0 · wb[j,q] + bb[0,q]) 0
  on the extended reals. Two spellings of that function occur: the host's (two `dot_general`s, the biases broadcast
  along the rows, the rectifier a maximum with a broadcast zero) and a tile's (two matrix products into a zero
  accumulator with the operands narrowed to bf16 first, the biases broadcast as vectors). At the ideal values a change of
  format is the identity and both products are plain sums over the contracted coordinate, so each spelling reads the
  formula above at every entry; nothing here needs the entries to be finite.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp

open Idealize.ShloMosaic Idealize.ShloMosaic.ValueIdx

/-! ## A plain matrix product's dimension numbers, and its sum -/

/-- The dimension numbers of a plain product [m, k] × [k, n] → [m, n]: contract the left operand's axis 1 with the
    right operand's axis 0. -/
abbrev D2 {m k n : Nat} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

variable {m k n : Nat}

/-- The left operand's index at output (a, b) and contracted coordinate c is (a, c). -/
theorem lhsIdx_D2 (w : DotDims.WF ⟨2, ![m, k]⟩ ⟨2, ![k, n]⟩ ⟨2, ![m, n]⟩ [1] [0] [0] [1] [] []) (a : Fin m) (b : Fin n) (c : Fin k) :
    (D2 w).lhsIdx (ix2 a b) ((contrEquiv1 (D2 w) k rfl rfl).symm c) = ix2 a c := by
  have c2 := contrEquiv1_symm_val (D2 w) k rfl rfl c
  funext ax; apply Fin.ext
  match ax with
  | ⟨0, _⟩ => simp [DotDims.lhsIdx]; rfl
  | ⟨1, _⟩ => simp [DotDims.lhsIdx]; exact c2

/-- The right operand's index at output (a, b) and contracted coordinate c is (c, b). -/
theorem rhsIdx_D2 (w : DotDims.WF ⟨2, ![m, k]⟩ ⟨2, ![k, n]⟩ ⟨2, ![m, n]⟩ [1] [0] [0] [1] [] []) (a : Fin m) (b : Fin n) (c : Fin k) :
    (D2 w).rhsIdx (ix2 a b) ((contrEquiv1 (D2 w) k rfl rfl).symm c) = ix2 c b := by
  have c2 := contrEquiv1_symm_val (D2 w) k rfl rfl c
  funext ax; apply Fin.ext
  match ax with
  | ⟨0, _⟩ => simp [DotDims.rhsIdx]; exact c2
  | ⟨1, _⟩ => simp [DotDims.rhsIdx]; rfl

/-- The host's product at (a, b): the sum over the contracted coordinate of the entries' products. -/
theorem dotGeneral_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (D2 w) prec A B (ix2 a b) = ∑ c : Fin k, A (ix2 a c) * B (ix2 c b) := by
  show FloatOps.dotGeneral _ prec _ A B (ix2 a b) = _
  rw [Ideal.dotGeneral_apply, ← Equiv.sum_comp (contrEquiv1 (D2 w) k rfl rfl).symm]
  refine Finset.sum_congr rfl fun c _ => ?_
  rw [lhsIdx_D2, rhsIdx_D2]

/-- A tile's product into a zero accumulator at (a, b): the same sum. -/
theorem matmul_zero_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (D2 w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (D2 w) k rfl rfl).symm]
  refine Finset.sum_congr rfl fun c _ => ?_
  rw [lhsIdx_D2, rhsIdx_D2]

/-! ## Broadcasts of a one-row bias and of a scalar, at an entry -/

/-- A [1, D] row broadcast along the rows of [N, D] reads, at (r, q), the row at q. -/
theorem bcastRow_at {N D : Nat} {α : Type} (h : (⟨2, ![1, D]⟩ : Shape).BroadcastsInDim ⟨2, ![N, D]⟩ (![0, 1] : Fin 2 → Fin 2))
    (v : (⟨2, ![1, D]⟩ : Shape).Idx → α) (r : Fin N) (q : Fin D) :
    broadcastInDim ⟨2, ![N, D]⟩ (![0, 1] : Fin 2 → Fin 2) h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if D = 1 then 0 else q.val
    split
    · have := q.isLt; omega
    · rfl

/-- A scalar broadcast to [N, D] reads the scalar everywhere. -/
theorem bcastScalar_at {N D : Nat} {α : Type} (h : (⟨0, ![]⟩ : Shape).BroadcastsInDim ⟨2, ![N, D]⟩ (![] : Fin 0 → Fin 2))
    (v : (⟨0, ![]⟩ : Shape).Idx → α) (i : (⟨2, ![N, D]⟩ : Shape).Idx) :
    broadcastInDim ⟨2, ![N, D]⟩ (![] : Fin 0 → Fin 2) h v i = v ix0 :=
  broadcastInDim_apply _ h v i ix0 fun ax => ax.elim0

/-- A [D] vector viewed as its one row [1, D] is the vector broadcast along a new leading unit axis: both read the
    vector's entry i at (0, i). -/
theorem rowCast_eq_bcast {D : Nat} {α : Type} (x : (⟨1, ![D]⟩ : Shape).Idx → α) (h : (⟨1, ![D]⟩ : Shape).ShapeCasts ⟨2, ![1, D]⟩)
    (h' : (⟨1, ![D]⟩ : Shape).BroadcastsInDim ⟨2, ![1, D]⟩ (![1] : Fin 1 → Fin 2)) :
    shapeCast ⟨2, ![1, D]⟩ x h = broadcastInDim ⟨2, ![1, D]⟩ (![1] : Fin 1 → Fin 2) h' x := by
  funext j
  obtain ⟨u, i, rfl⟩ : ∃ (u : Fin 1) (i : Fin D), j = ix2 u i := ⟨j 0, j 1, eq_ix2 j⟩
  rw [shapeCast_a_1a_apply]
  refine (broadcastInDim_apply _ h' x (ix2 u i) (ix1 i) fun ax => ?_).symm
  match ax with
  | ⟨0, _⟩ =>
    show i.val = if D = 1 then 0 else i.val
    split
    · have := i.isLt; omega
    · rfl

/-! ## The perceptron at an entry -/

/-- The value at (r, q): the second layer's rectified affine map of the first layer's. -/
def mlpVal {N K D : Nat} (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) : Ideal .f32 :=
  max ((∑ j : Fin D, max ((∑ i : Fin K, x (ix2 r i) * wa (ix2 i j)) + ba (ix2 (0 : Fin 1) j)) (Ideal.ofBits .f32 0x00000000#32) * wb (ix2 j q))
    + bb (ix2 (0 : Fin 1) q)) (Ideal.ofBits .f32 0x00000000#32)

/-- The value at row r depends only on row r of x: two inputs with equal rows give equal values. -/
theorem mlpVal_congr_row {N N' K D : Nat} (x : FVec Ideal ⟨2, ![N, K]⟩ .f32) (x' : FVec Ideal ⟨2, ![N', K]⟩ .f32)
    (wa : FVec Ideal ⟨2, ![K, D]⟩ .f32) (ba : FVec Ideal ⟨2, ![1, D]⟩ .f32) (wb : FVec Ideal ⟨2, ![D, D]⟩ .f32) (bb : FVec Ideal ⟨2, ![1, D]⟩ .f32)
    (r : Fin N) (r' : Fin N') (hrow : ∀ i : Fin K, x (ix2 r i) = x' (ix2 r' i)) (q : Fin D) :
    mlpVal x wa ba wb bb r q = mlpVal x' wa ba wb bb r' q := by
  unfold mlpVal
  simp only [hrow]

/-- The host's spelling: two `dot_general`s, the biases broadcast along the rows, each rectifier a maximum with a
    broadcast zero. -/
def mlpHost {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![N, D]⟩ .f32 :=
  maximumf (addf (Host.dotGeneral (D2 wB) none
      (maximumf (addf (Host.dotGeneral (D2 wA) none x wa) (broadcastInDim ⟨2, ![N, D]⟩ (![0, 1] : Fin 2 → Fin 2) hb ba))
        (broadcastInDim ⟨2, ![N, D]⟩ (![] : Fin 0 → Fin 2) hz (constant (F := Ideal) ⟨0, ![]⟩ .f32 0x00000000#32))) wb)
      (broadcastInDim ⟨2, ![N, D]⟩ (![0, 1] : Fin 2 → Fin 2) hb bb))
    (broadcastInDim ⟨2, ![N, D]⟩ (![] : Fin 0 → Fin 2) hz (constant (F := Ideal) ⟨0, ![]⟩ .f32 0x00000000#32))

theorem mlpHost_at {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) :
    mlpHost wA wB hb hz x wa ba wb bb (ix2 r q) = mlpVal x wa ba wb bb r q := by
  unfold mlpHost mlpVal
  rw [maximumf_apply, addf_apply, dotGeneral_at, bcastRow_at, bcastScalar_at, constant_apply]
  refine congrArg (fun s => max (s + bb (ix2 (0 : Fin 1) q)) (Ideal.ofBits .f32 0x00000000#32)) ?_
  refine Finset.sum_congr rfl fun j _ => ?_
  rw [maximumf_apply, addf_apply, dotGeneral_at, bcastRow_at, bcastScalar_at, constant_apply]

/-- The host's spelling with the biases given as vectors [D], each made a row by a broadcast along a new unit axis. -/
def mlpHostV {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) : FVec Ideal ⟨2, ![N, D]⟩ .f32 :=
  mlpHost wA wB hb hz x wa (broadcastInDim ⟨2, ![1, D]⟩ (![1] : Fin 1 → Fin 2) hr ba) wb
    (broadcastInDim ⟨2, ![1, D]⟩ (![1] : Fin 1 → Fin 2) hr bb)

/-- With the biases reshaped to one row instead: the same array. -/
theorem mlpHost_rowCast {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (hc : (⟨1, ![D]⟩ : Shape).ShapeCasts ⟨2, ![1, D]⟩)
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) :
    mlpHost wA wB hb hz x wa (shapeCast ⟨2, ![1, D]⟩ ba hc) wb (shapeCast ⟨2, ![1, D]⟩ bb hc)
      = mlpHostV wA wB hb hz hr x wa ba wb bb := by
  unfold mlpHostV
  rw [rowCast_eq_bcast ba hc hr, rowCast_eq_bcast bb hc hr]

/-- A tile's spelling: the operands narrowed to bf16, two products into a zero accumulator, the biases broadcast as
    vectors, each rectifier a maximum with a splat zero. -/
def mlpTile {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![T, D]⟩ .f32 :=
  maximumf (addf (matmul (D2 wB) none
      (truncf .bf16 (maximumf (addf (matmul (D2 wA) none (truncf .bf16 x hlt) (truncf .bf16 wa hlt) (constant ⟨2, ![T, D]⟩ .f32 0x00000000#32))
          (broadcastTo ⟨2, ![T, D]⟩ ba hb)) (broadcast ⟨2, ![T, D]⟩ (Scalar.ofBits (F := Ideal) .f32 0x00000000#32))) hlt)
      (truncf .bf16 wb hlt) (constant ⟨2, ![T, D]⟩ .f32 0x00000000#32))
      (broadcastTo ⟨2, ![T, D]⟩ bb hb))
    (broadcast ⟨2, ![T, D]⟩ (Scalar.ofBits (F := Ideal) .f32 0x00000000#32))

theorem mlpTile_at {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (p : Fin T) (q : Fin D) :
    mlpTile wA wB hb hlt x wa ba wb bb (ix2 p q) = mlpVal x wa ba wb bb p q := by
  unfold mlpTile mlpVal
  rw [maximumf_apply, addf_apply, matmul_zero_at, broadcastTo_1b_ab_apply, broadcast_apply]
  refine congrArg (fun s => max (s + bb (ix2 (0 : Fin 1) q)) (Ideal.ofBits .f32 0x00000000#32)) ?_
  refine Finset.sum_congr rfl fun j _ => ?_
  rw [truncf_apply, truncf_apply, maximumf_apply, addf_apply, matmul_zero_at, broadcastTo_1b_ab_apply, broadcast_apply]
  refine congrArg (fun s => max (s + ba (ix2 (0 : Fin 1) j)) (Ideal.ofBits .f32 0x00000000#32) * wb (ix2 j q)) ?_
  refine Finset.sum_congr rfl fun i _ => ?_
  rw [truncf_apply, truncf_apply]

end Cert.Mlp

end
-- ==== Proof.Layers.lean ====
/-
  Stacks of affine layers and rectifiers, computed on a block of rows and on the whole array.

  An affine layer sends a matrix x : [N, K] to x · w + b with w : [K, D] and a one-row bias b : [1, D] added to every row;
  a rectifier is the entrywise maximum with zero. Row r of the result of either depends on row r of its input only:
      (x · w + b)[r, q] = ∑ i, x[r, i] · w[i, q] + b[0, q],        relu(v)[r, q] = max v[r, q] 0.
  So a tile that holds rows off … off + T − 1 of the input, pushed through the same layers, holds the same rows of the
  whole array's result. Two spellings occur. The whole array's: a host `dot_general`, the bias broadcast along the rows, the
  rectifier a maximum with a broadcast zero. The tile's: both operands narrowed to bf16 (the identity on the ideal values),
  a matrix product into a zero accumulator, the bias row cast to its own shape and broadcast as a vector, the rectifier a
  maximum with a splat zero. Everything is on the extended reals and nothing needs an entry to be finite: the two sides are
  the same sums of the same products.
-/
import proofs.«122312_j30777735643492_1_alg».proof.Proof.LibMlpAt

noncomputable section

open scoped BigOperators

namespace Cert.Layers

open Idealize.ShloMosaic Idealize.ShloMosaic.ValueIdx Cert.Mlp

variable {T N K D E : Nat}

/-- The tile `A` holds rows off … off + T − 1 of `B`. -/
def RowsOf (off : Nat) (hoff : off + T ≤ N) (A : FVec Ideal ⟨2, ![T, D]⟩ .f32) (B : FVec Ideal ⟨2, ![N, D]⟩ .f32) : Prop :=
  ∀ (p : Fin T) (q : Fin D), A (ix2 p q) = B (ix2 ⟨off + p.val, by have := p.isLt; omega⟩ q)

/-! ## One layer, in the whole array's spelling -/

/-- x · w + b, the bias row broadcast along the rows. -/
def affHost (wf : DotDims.WF ⟨2, ![N, K]⟩ ⟨2, ![K, D]⟩ ⟨2, ![N, D]⟩ [1] [0] [0] [1] [] [])
    (hb : (⟨2, ![1, D]⟩ : Shape).BroadcastsInDim ⟨2, ![N, D]⟩ (![0, 1] : Fin 2 → Fin 2))
    (x : FVec Ideal ⟨2, ![N, K]⟩ .f32) (w : FVec Ideal ⟨2, ![K, D]⟩ .f32) (b : FVec Ideal ⟨2, ![1, D]⟩ .f32) : FVec Ideal ⟨2, ![N, D]⟩ .f32 :=
  addf (Host.dotGeneral (D2 wf) none x w) (broadcastInDim ⟨2, ![N, D]⟩ (![0, 1] : Fin 2 → Fin 2) hb b)

theorem affHost_at (wf : DotDims.WF ⟨2, ![N, K]⟩ ⟨2, ![K, D]⟩ ⟨2, ![N, D]⟩ [1] [0] [0] [1] [] [])
    (hb : (⟨2, ![1, D]⟩ : Shape).BroadcastsInDim ⟨2, ![N, D]⟩ (![0, 1] : Fin 2 → Fin 2))
    (x : FVec Ideal ⟨2, ![N, K]⟩ .f32) (w : FVec Ideal ⟨2, ![K, D]⟩ .f32) (b : FVec Ideal ⟨2, ![1, D]⟩ .f32) (r : Fin N) (q : Fin D) :
    affHost wf hb x w b (ix2 r q) = (∑ i : Fin K, x (ix2 r i) * w (ix2 i q)) + b (ix2 (0 : Fin 1) q) := by
  unfold affHost
  rw [addf_apply, dotGeneral_at, bcastRow_at]

/-- max v 0, the zero a broadcast scalar. -/
def reluHost (hz : (⟨0, ![]⟩ : Shape).BroadcastsInDim ⟨2, ![N, D]⟩ (![] : Fin 0 → Fin 2)) (v : FVec Ideal ⟨2, ![N, D]⟩ .f32) :
    FVec Ideal ⟨2, ![N, D]⟩ .f32 :=
  maximumf v (broadcastInDim ⟨2, ![N, D]⟩ (![] : Fin 0 → Fin 2) hz (constant (F := Ideal) ⟨0, ![]⟩ .f32 0x00000000#32))

theorem reluHost_at (hz : (⟨0, ![]⟩ : Shape).BroadcastsInDim ⟨2, ![N, D]⟩ (![] : Fin 0 → Fin 2)) (v : FVec Ideal ⟨2, ![N, D]⟩ .f32)
    (i : (⟨2, ![N, D]⟩ : Shape).Idx) : reluHost hz v i = max (v i) (Ideal.ofBits .f32 0x00000000#32) := by
  unfold reluHost
  rw [maximumf_apply, bcastScalar_at, constant_apply]

/-! ## One layer, in a tile's spelling -/

/-- x · w + b on a tile: operands narrowed to bf16, the product into a zero accumulator, the bias row cast to its own shape
    and broadcast as a vector. -/
def affTile (wf : DotDims.WF ⟨2, ![T, K]⟩ ⟨2, ![K, D]⟩ ⟨2, ![T, D]⟩ [1] [0] [0] [1] [] [])
    (hb : (⟨2, ![1, D]⟩ : Shape).Broadcasts ⟨2, ![T, D]⟩) (hc : (⟨2, ![1, D]⟩ : Shape).ShapeCasts ⟨2, ![1, D]⟩)
    (hlt : FTy.bf16.bits < FTy.f32.bits)
    (x : FVec Ideal ⟨2, ![T, K]⟩ .f32) (w : FVec Ideal ⟨2, ![K, D]⟩ .f32) (b : FVec Ideal ⟨2, ![1, D]⟩ .f32) : FVec Ideal ⟨2, ![T, D]⟩ .f32 :=
  addf (matmul (D2 wf) none (truncf .bf16 x hlt) (truncf .bf16 w hlt) (constant ⟨2, ![T, D]⟩ .f32 0x00000000#32))
    (broadcastTo ⟨2, ![T, D]⟩ (shapeCast ⟨2, ![1, D]⟩ b hc) hb)

theorem affTile_at (wf : DotDims.WF ⟨2, ![T, K]⟩ ⟨2, ![K, D]⟩ ⟨2, ![T, D]⟩ [1] [0] [0] [1] [] [])
    (hb : (⟨2, ![1, D]⟩ : Shape).Broadcasts ⟨2, ![T, D]⟩) (hc : (⟨2, ![1, D]⟩ : Shape).ShapeCasts ⟨2, ![1, D]⟩)
    (hlt : FTy.bf16.bits < FTy.f32.bits)
    (x : FVec Ideal ⟨2, ![T, K]⟩ .f32) (w : FVec Ideal ⟨2, ![K, D]⟩ .f32) (b : FVec Ideal ⟨2, ![1, D]⟩ .f32) (p : Fin T) (q : Fin D) :
    affTile wf hb hc hlt x w b (ix2 p q) = (∑ i : Fin K, x (ix2 p i) * w (ix2 i q)) + b (ix2 (0 : Fin 1) q) := by
  unfold affTile
  rw [addf_apply, matmul_zero_at, broadcastTo_1b_ab_apply, shapeCast_self]
  refine congrArg (· + b (ix2 (0 : Fin 1) q)) (Finset.sum_congr rfl fun i _ => ?_)
  rw [truncf_apply, truncf_apply]

/-- max v 0 on a tile, the zero a splat scalar. -/
def reluTile (v : FVec Ideal ⟨2, ![T, D]⟩ .f32) : FVec Ideal ⟨2, ![T, D]⟩ .f32 :=
  maximumf v (broadcast ⟨2, ![T, D]⟩ (Scalar.ofBits (F := Ideal) .f32 0x00000000#32))

theorem reluTile_at (v : FVec Ideal ⟨2, ![T, D]⟩ .f32) (i : (⟨2, ![T, D]⟩ : Shape).Idx) :
    reluTile v i = max (v i) (Ideal.ofBits .f32 0x00000000#32) := by
  unfold reluTile
  rw [maximumf_apply, broadcast_apply]
  rfl

/-! ## A tile's rows stay the whole array's rows through a layer -/

theorem aff_rows (off : Nat) (hoff : off + T ≤ N)
    (wfT : DotDims.WF ⟨2, ![T, K]⟩ ⟨2, ![K, D]⟩ ⟨2, ![T, D]⟩ [1] [0] [0] [1] [] [])
    (hbT : (⟨2, ![1, D]⟩ : Shape).Broadcasts ⟨2, ![T, D]⟩) (hc : (⟨2, ![1, D]⟩ : Shape).ShapeCasts ⟨2, ![1, D]⟩)
    (hlt : FTy.bf16.bits < FTy.f32.bits)
    (wfH : DotDims.WF ⟨2, ![N, K]⟩ ⟨2, ![K, D]⟩ ⟨2, ![N, D]⟩ [1] [0] [0] [1] [] [])
    (hbH : (⟨2, ![1, D]⟩ : Shape).BroadcastsInDim ⟨2, ![N, D]⟩ (![0, 1] : Fin 2 → Fin 2))
    (xa : FVec Ideal ⟨2, ![T, K]⟩ .f32) (xb : FVec Ideal ⟨2, ![N, K]⟩ .f32) (w : FVec Ideal ⟨2, ![K, D]⟩ .f32) (b : FVec Ideal ⟨2, ![1, D]⟩ .f32)
    (hx : RowsOf off hoff xa xb) : RowsOf off hoff (affTile wfT hbT hc hlt xa w b) (affHost wfH hbH xb w b) := by
  intro p q
  rw [affTile_at, affHost_at]
  refine congrArg (· + b (ix2 (0 : Fin 1) q)) (Finset.sum_congr rfl fun i _ => ?_)
  rw [hx p i]

theorem relu_rows (off : Nat) (hoff : off + T ≤ N) (hz : (⟨0, ![]⟩ : Shape).BroadcastsInDim ⟨2, ![N, D]⟩ (![] : Fin 0 → Fin 2))
    (a : FVec Ideal ⟨2, ![T, D]⟩ .f32) (b : FVec Ideal ⟨2, ![N, D]⟩ .f32) (h : RowsOf off hoff a b) :
    RowsOf off hoff (reluTile a) (reluHost hz b) := by
  intro p q
  rw [reluTile_at, reluHost_at, h p q]

/-! ## The two stacks: three layers with two rectifiers between them, and two layers with one -/

section Stacks

variable (wf1 : DotDims.WF ⟨2, ![N, K]⟩ ⟨2, ![K, D]⟩ ⟨2, ![N, D]⟩ [1] [0] [0] [1] [] [])
  (wf2 : DotDims.WF ⟨2, ![N, D]⟩ ⟨2, ![D, D]⟩ ⟨2, ![N, D]⟩ [1] [0] [0] [1] [] [])
  (hb : (⟨2, ![1, D]⟩ : Shape).BroadcastsInDim ⟨2, ![N, D]⟩ (![0, 1] : Fin 2 → Fin 2))
  (hz : (⟨0, ![]⟩ : Shape).BroadcastsInDim ⟨2, ![N, D]⟩ (![] : Fin 0 → Fin 2))
  (wf1' : DotDims.WF ⟨2, ![T, K]⟩ ⟨2, ![K, D]⟩ ⟨2, ![T, D]⟩ [1] [0] [0] [1] [] [])
  (wf2' : DotDims.WF ⟨2, ![T, D]⟩ ⟨2, ![D, D]⟩ ⟨2, ![T, D]⟩ [1] [0] [0] [1] [] [])
  (hb' : (⟨2, ![1, D]⟩ : Shape).Broadcasts ⟨2, ![T, D]⟩) (hc : (⟨2, ![1, D]⟩ : Shape).ShapeCasts ⟨2, ![1, D]⟩)
  (hlt : FTy.bf16.bits < FTy.f32.bits)

/-- relu(relu(x · w1 + b1) · w2 + b2) · w3 + b3 on the whole array. -/
def stack3Host (x : FVec Ideal ⟨2, ![N, K]⟩ .f32) (w1 : FVec Ideal ⟨2, ![K, D]⟩ .f32) (b1 : FVec Ideal ⟨2, ![1, D]⟩ .f32)
    (w2 : FVec Ideal ⟨2, ![D, D]⟩ .f32) (b2 : FVec Ideal ⟨2, ![1, D]⟩ .f32) (w3 : FVec Ideal ⟨2, ![D, D]⟩ .f32) (b3 : FVec Ideal ⟨2, ![1, D]⟩ .f32) :
    FVec Ideal ⟨2, ![N, D]⟩ .f32 :=
  affHost wf2 hb (reluHost hz (affHost wf2 hb (reluHost hz (affHost wf1 hb x w1 b1)) w2 b2)) w3 b3

/-- The same on a tile. -/
def stack3Tile (x : FVec Ideal ⟨2, ![T, K]⟩ .f32) (w1 : FVec Ideal ⟨2, ![K, D]⟩ .f32) (b1 : FVec Ideal ⟨2, ![1, D]⟩ .f32)
    (w2 : FVec Ideal ⟨2, ![D, D]⟩ .f32) (b2 : FVec Ideal ⟨2, ![1, D]⟩ .f32) (w3 : FVec Ideal ⟨2, ![D, D]⟩ .f32) (b3 : FVec Ideal ⟨2, ![1, D]⟩ .f32) :
    FVec Ideal ⟨2, ![T, D]⟩ .f32 :=
  affTile wf2' hb' hc hlt (reluTile (affTile wf2' hb' hc hlt (reluTile (affTile wf1' hb' hc hlt x w1 b1)) w2 b2)) w3 b3

theorem stack3_rows (off : Nat) (hoff : off + T ≤ N)
    (xa : FVec Ideal ⟨2, ![T, K]⟩ .f32) (xb : FVec Ideal ⟨2, ![N, K]⟩ .f32) (w1 : FVec Ideal ⟨2, ![K, D]⟩ .f32) (b1 : FVec Ideal ⟨2, ![1, D]⟩ .f32)
    (w2 : FVec Ideal ⟨2, ![D, D]⟩ .f32) (b2 : FVec Ideal ⟨2, ![1, D]⟩ .f32) (w3 : FVec Ideal ⟨2, ![D, D]⟩ .f32) (b3 : FVec Ideal ⟨2, ![1, D]⟩ .f32)
    (hx : RowsOf off hoff xa xb) :
    RowsOf off hoff (stack3Tile wf1' wf2' hb' hc hlt xa w1 b1 w2 b2 w3 b3) (stack3Host wf1 wf2 hb hz xb w1 b1 w2 b2 w3 b3) :=
  aff_rows off hoff wf2' hb' hc hlt wf2 hb _ _ w3 b3
    (relu_rows off hoff hz _ _
      (aff_rows off hoff wf2' hb' hc hlt wf2 hb _ _ w2 b2
        (relu_rows off hoff hz _ _
          (aff_rows off hoff wf1' hb' hc hlt wf1 hb xa xb w1 b1 hx))))

end Stacks

section Stack2

variable (wfa : DotDims.WF ⟨2, ![N, K]⟩ ⟨2, ![K, K]⟩ ⟨2, ![N, K]⟩ [1] [0] [0] [1] [] [])
  (wfb : DotDims.WF ⟨2, ![N, K]⟩ ⟨2, ![K, E]⟩ ⟨2, ![N, E]⟩ [1] [0] [0] [1] [] [])
  (hba : (⟨2, ![1, K]⟩ : Shape).BroadcastsInDim ⟨2, ![N, K]⟩ (![0, 1] : Fin 2 → Fin 2))
  (hbb : (⟨2, ![1, E]⟩ : Shape).BroadcastsInDim ⟨2, ![N, E]⟩ (![0, 1] : Fin 2 → Fin 2))
  (hz : (⟨0, ![]⟩ : Shape).BroadcastsInDim ⟨2, ![N, K]⟩ (![] : Fin 0 → Fin 2))
  (wfa' : DotDims.WF ⟨2, ![T, K]⟩ ⟨2, ![K, K]⟩ ⟨2, ![T, K]⟩ [1] [0] [0] [1] [] [])
  (wfb' : DotDims.WF ⟨2, ![T, K]⟩ ⟨2, ![K, E]⟩ ⟨2, ![T, E]⟩ [1] [0] [0] [1] [] [])
  (hba' : (⟨2, ![1, K]⟩ : Shape).Broadcasts ⟨2, ![T, K]⟩) (hbb' : (⟨2, ![1, E]⟩ : Shape).Broadcasts ⟨2, ![T, E]⟩)
  (hca : (⟨2, ![1, K]⟩ : Shape).ShapeCasts ⟨2, ![1, K]⟩) (hcb : (⟨2, ![1, E]⟩ : Shape).ShapeCasts ⟨2, ![1, E]⟩)
  (hlt : FTy.bf16.bits < FTy.f32.bits)

/-- relu(x · wa + ba) · wb + bb on the whole array. -/
def stack2Host (x : FVec Ideal ⟨2, ![N, K]⟩ .f32) (wa : FVec Ideal ⟨2, ![K, K]⟩ .f32) (ba : FVec Ideal ⟨2, ![1, K]⟩ .f32)
    (wb : FVec Ideal ⟨2, ![K, E]⟩ .f32) (bb : FVec Ideal ⟨2, ![1, E]⟩ .f32) : FVec Ideal ⟨2, ![N, E]⟩ .f32 :=
  affHost wfb hbb (reluHost hz (affHost wfa hba x wa ba)) wb bb

/-- The same on a tile. -/
def stack2Tile (x : FVec Ideal ⟨2, ![T, K]⟩ .f32) (wa : FVec Ideal ⟨2, ![K, K]⟩ .f32) (ba : FVec Ideal ⟨2, ![1, K]⟩ .f32)
    (wb : FVec Ideal ⟨2, ![K, E]⟩ .f32) (bb : FVec Ideal ⟨2, ![1, E]⟩ .f32) : FVec Ideal ⟨2, ![T, E]⟩ .f32 :=
  affTile wfb' hbb' hcb hlt (reluTile (affTile wfa' hba' hca hlt x wa ba)) wb bb

theorem stack2_rows (off : Nat) (hoff : off + T ≤ N)
    (xa : FVec Ideal ⟨2, ![T, K]⟩ .f32) (xb : FVec Ideal ⟨2, ![N, K]⟩ .f32) (wa : FVec Ideal ⟨2, ![K, K]⟩ .f32) (ba : FVec Ideal ⟨2, ![1, K]⟩ .f32)
    (wb : FVec Ideal ⟨2, ![K, E]⟩ .f32) (bb : FVec Ideal ⟨2, ![1, E]⟩ .f32) (hx : RowsOf off hoff xa xb) :
    RowsOf off hoff (stack2Tile wfa' wfb' hba' hbb' hca hcb hlt xa wa ba wb bb) (stack2Host wfa wfb hba hbb hz xb wa ba wb bb) :=
  aff_rows off hoff wfb' hbb' hcb hlt wfb hbb _ _ wb bb
    (relu_rows off hoff hz _ _
      (aff_rows off hoff wfa' hba' hca hlt wfa hba xa xb wa ba hx))

end Stack2

end Cert.Layers

end
-- ==== Proof.KIValue.lean ====
/-
  What each of the two calls leaves in its result array, as ONE function of the arrays the call finds — at the ideal values.

  Call 0 walks 128 grid points; at point t it is handed rows 5000·t … 5000·t + 4999 of its first operand [640000, 3] and the
  whole of the three weight matrices and the three bias rows, and writes back rows 5000·t … 5000·t + 4999 of its result
  [640000, 128]: the three-layer stack of those rows. Since a row of the stack's result depends on the same row of its input
  only, the block written at point t is block t of the stack applied to the whole first operand; the 128 blocks tile the
  result, so the result array ends as that whole-array stack. Call 1 is the same with 20 points, rows of [100000, 131] in,
  rows of [100000, 2] out, and the two-layer stack.
-/
import proofs.«122312_j30777735643492_1_alg».proof.Proof.KIRun
import proofs.«122312_j30777735643492_1_alg».proof.Proof.Layers
import proofs.«122312_j30777735643492_1_alg».proof.Proof.Gen.ReferenceIdeal
import Idealize.ShloMosaic.Lib.Pipeline.Value
import Idealize.ShloMosaic.Lib.ValueIdx

set_option maxRecDepth 16384

noncomputable section

namespace Cert.KernelIdeal.TwoCalls

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Layers

theorem zeros2 : (![0, 0] : Fin 2 → Nat) = fun _ => 0 := funext fun a => by fin_cases a <;> rfl

/-! ## The stored blocks are the bodies' payloads, and the payloads are the tile stacks -/

theorem stored0_eq (x0 : Vec Ideal S5000x3 .f32) (x1 : Vec Ideal S3x128 .f32) (x2 : Vec Ideal S1x128 .f32) (x3 : Vec Ideal S128x128 .f32)
    (x4 : Vec Ideal S1x128 .f32) (x5 : Vec Ideal S128x128 .f32) (x6 : Vec Ideal S1x128 .f32) :
    stored0 (F := Ideal) x0 x1 x2 x3 x4 x5 x6 = k0_pay1 x0 x1 x2 x3 x4 x5 x6 := by
  unfold stored0
  rw [View.canon_unit_zero zeros2]
  simp only [View.ld_unit_zero (S := S5000x3) zeros2, View.ld_unit_zero (S := S3x128) zeros2, View.ld_unit_zero (S := S1x128) zeros2,
    View.ld_unit_zero (S := S128x128) zeros2]

theorem stored1_eq (x0 : Vec Ideal S5000x131 .f32) (x1 : Vec Ideal S131x131 .f32) (x2 : Vec Ideal S1x131 .f32) (x3 : Vec Ideal S131x2 .f32)
    (x4 : Vec Ideal S1x2 .f32) :
    stored1 (F := Ideal) x0 x1 x2 x3 x4 = k1_pay1 x0 x1 x2 x3 x4 := by
  unfold stored1
  rw [View.canon_unit_zero zeros2]
  simp only [View.ld_unit_zero (S := S5000x131) zeros2, View.ld_unit_zero (S := S131x131) zeros2, View.ld_unit_zero (S := S1x131) zeros2,
    View.ld_unit_zero (S := S131x2) zeros2, View.ld_unit_zero (S := S1x2) zeros2]

theorem pay0_tile (x0 : Vec Ideal S5000x3 .f32) (x1 : Vec Ideal S3x128 .f32) (x2 : Vec Ideal S1x128 .f32) (x3 : Vec Ideal S128x128 .f32)
    (x4 : Vec Ideal S1x128 .f32) (x5 : Vec Ideal S128x128 .f32) (x6 : Vec Ideal S1x128 .f32) :
    k0_pay1 (F := Ideal) x0 x1 x2 x3 x4 x5 x6
      = stack3Tile dot_S5000x3_S3x128_S5000x128_1_0_0_1_n_n_wf dot_S5000x128_S128x128_S5000x128_1_0_0_1_n_n_wf broadcasts_S1x128_S5000x128
          shapeCasts_S1x128_S1x128 bitsLt_bf16_f32 (shapeCast S5000x3 x0 shapeCasts_S5000x3_S5000x3) x1 x2 x3 x4 x5 x6 := rfl

theorem pay1_tile (x0 : Vec Ideal S5000x131 .f32) (x1 : Vec Ideal S131x131 .f32) (x2 : Vec Ideal S1x131 .f32) (x3 : Vec Ideal S131x2 .f32)
    (x4 : Vec Ideal S1x2 .f32) :
    k1_pay1 (F := Ideal) x0 x1 x2 x3 x4
      = stack2Tile dot_S5000x131_S131x131_S5000x131_1_0_0_1_n_n_wf dot_S5000x131_S131x2_S5000x2_1_0_0_1_n_n_wf broadcasts_S1x131_S5000x131
          broadcasts_S1x2_S5000x2 shapeCasts_S1x131_S1x131 shapeCasts_S1x2_S1x2 bitsLt_bf16_f32
          (shapeCast S5000x131 x0 shapeCasts_S5000x131_S5000x131) x1 x2 x3 x4 := rfl

/-! ## The whole-array stacks -/

/-- The three-layer stack on [640000, 3] → [640000, 128]. -/
abbrev edgeStack (X : FVec Ideal ⟨2, ![640000, 3]⟩ .f32) (w1 : FVec Ideal ⟨2, ![3, 128]⟩ .f32) (b1 : FVec Ideal ⟨2, ![1, 128]⟩ .f32)
    (w2 : FVec Ideal ⟨2, ![128, 128]⟩ .f32) (b2 : FVec Ideal ⟨2, ![1, 128]⟩ .f32) (w3 : FVec Ideal ⟨2, ![128, 128]⟩ .f32) (b3 : FVec Ideal ⟨2, ![1, 128]⟩ .f32) :
    FVec Ideal ⟨2, ![640000, 128]⟩ .f32 :=
  stack3Host Cert.ReferenceIdeal.Gen.dot_S640000x3_S3x128_S640000x128_1_0_0_1_n_n_wf Cert.ReferenceIdeal.Gen.dot_S640000x128_S128x128_S640000x128_1_0_0_1_n_n_wf
    Cert.ReferenceIdeal.Gen.bcast_S1x128_S640000x128_0_1 Cert.ReferenceIdeal.Gen.bcast_S_S640000x128 X w1 b1 w2 b2 w3 b3

/-- The two-layer stack on [100000, 131] → [100000, 2]. -/
abbrev nodeStack (X : FVec Ideal ⟨2, ![100000, 131]⟩ .f32) (wa : FVec Ideal ⟨2, ![131, 131]⟩ .f32) (ba : FVec Ideal ⟨2, ![1, 131]⟩ .f32)
    (wb : FVec Ideal ⟨2, ![131, 2]⟩ .f32) (bb : FVec Ideal ⟨2, ![1, 2]⟩ .f32) : FVec Ideal ⟨2, ![100000, 2]⟩ .f32 :=
  stack2Host Cert.ReferenceIdeal.Gen.dot_S100000x131_S131x131_S100000x131_1_0_0_1_n_n_wf Cert.ReferenceIdeal.Gen.dot_S100000x131_S131x2_S100000x2_1_0_0_1_n_n_wf
    Cert.ReferenceIdeal.Gen.bcast_S1x131_S100000x131_0_1 Cert.ReferenceIdeal.Gen.bcast_S1x2_S100000x2_0_1 Cert.ReferenceIdeal.Gen.bcast_S_S100000x131 X wa ba wb bb

/-- A tile holding rows off … off + 4999 of X, pushed through the body of call 0, is those rows of the whole-array stack. -/
theorem pay0_rows (off : Nat) (hoff : off + 5000 ≤ 640000)
    (x0 : Vec Ideal S5000x3 .f32) (X : FVec Ideal ⟨2, ![640000, 3]⟩ .f32) (w1 : Vec Ideal S3x128 .f32) (b1 : Vec Ideal S1x128 .f32)
    (w2 : Vec Ideal S128x128 .f32) (b2 : Vec Ideal S1x128 .f32) (w3 : Vec Ideal S128x128 .f32) (b3 : Vec Ideal S1x128 .f32)
    (hx : ∀ (p : Fin 5000) (k : Fin 3), x0 (ix2 p k) = X (ix2 ⟨off + p.val, by have := p.isLt; omega⟩ k)) (p : Fin 5000) (q : Fin 128) :
    k0_pay1 (F := Ideal) x0 w1 b1 w2 b2 w3 b3 (ix2 p q) = edgeStack X w1 b1 w2 b2 w3 b3 (ix2 ⟨off + p.val, by have := p.isLt; omega⟩ q) := by
  rw [pay0_tile]
  refine stack3_rows _ _ _ _ _ _ _ _ _ off hoff _ X w1 b1 w2 b2 w3 b3 ?_ p q
  intro p k
  rw [shapeCast_self]
  exact hx p k

theorem pay1_rows (off : Nat) (hoff : off + 5000 ≤ 100000)
    (x0 : Vec Ideal S5000x131 .f32) (X : FVec Ideal ⟨2, ![100000, 131]⟩ .f32) (wa : Vec Ideal S131x131 .f32) (ba : Vec Ideal S1x131 .f32)
    (wb : Vec Ideal S131x2 .f32) (bb : Vec Ideal S1x2 .f32)
    (hx : ∀ (p : Fin 5000) (k : Fin 131), x0 (ix2 p k) = X (ix2 ⟨off + p.val, by have := p.isLt; omega⟩ k)) (p : Fin 5000) (q : Fin 2) :
    k1_pay1 (F := Ideal) x0 wa ba wb bb (ix2 p q) = nodeStack X wa ba wb bb (ix2 ⟨off + p.val, by have := p.isLt; omega⟩ q) := by
  rw [pay1_tile]
  refine stack2_rows _ _ _ _ _ _ _ _ _ _ _ _ off hoff _ X wa ba wb bb ?_ p q
  intro p k
  rw [shapeCast_self]
  exact hx p k

/-! ## The index maps, decided over the grids -/

/-- Call 0: the first operand's and the result's block index is (t, 0); every other operand's is (0, 0). -/
theorem maps0 : ∀ t : Fin cfg0.N, win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 ∧ win0_4.index t (0 : Fin 2) = 0 ∧ win0_4.index t (1 : Fin 2) = 0
    ∧ win0_5.index t (0 : Fin 2) = 0 ∧ win0_5.index t (1 : Fin 2) = 0 ∧ win0_6.index t (0 : Fin 2) = 0 ∧ win0_6.index t (1 : Fin 2) = 0 :=
  (by decide +kernel : ∀ t : Fin grid0.N, _)

theorem maps1 : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0 ∧ win1_2.index t (0 : Fin 2) = 0 ∧ win1_2.index t (1 : Fin 2) = 0
    ∧ win1_3.index t (0 : Fin 2) = 0 ∧ win1_3.index t (1 : Fin 2) = 0 ∧ win1_4.index t (0 : Fin 2) = 0 ∧ win1_4.index t (1 : Fin 2) = 0 :=
  (by decide +kernel : ∀ t : Fin grid1.N, _)

section Arrays

variable (V : (c : Dev nD) → (b : Ref sig .tc) → Buf (Elt Ideal) ((c : Thread nD τ).loc b))

/-! ## Call 0 -/

/-- What call 0 leaves in its result array. -/
def edgeArr (c : Dev nD) : FVec Ideal ⟨2, ![640000, 128]⟩ .f32 :=
  edgeStack (V c main_v11) (V c main_arg5) (V c main_v12) (V c main_arg7) (V c main_v13) (V c main_arg9) (V c main_v14)

/-- A one-block operand's block is the operand. -/
theorem whole0_1 (c : Dev nD) (t : Fin cfg0.N) : blk0 V c 1 t = V c main_arg5 := by
  obtain ⟨-, -, -, -, a0, a1, -⟩ := maps0 t
  funext y
  show V c main_arg5 (((cfg0.win 1).blk t).view.emb y) = V c main_arg5 y
  refine congrArg _ (funext fun a => Fin.ext ?_)
  match a with
  | ⟨0, _⟩ => show win0_1.index t (0 : Fin 2) * 3 + 1 * (y 0).val = (y 0).val; omega
  | ⟨1, _⟩ => show win0_1.index t (1 : Fin 2) * 128 + 1 * (y 1).val = (y 1).val; omega
theorem whole0_2 (c : Dev nD) (t : Fin cfg0.N) : blk0 V c 2 t = V c main_v12 := by
  obtain ⟨-, -, -, -, -, -, a0, a1, -⟩ := maps0 t
  funext y
  show V c main_v12 (((cfg0.win 2).blk t).view.emb y) = V c main_v12 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega
theorem whole0_3 (c : Dev nD) (t : Fin cfg0.N) : blk0 V c 3 t = V c main_arg7 := by
  obtain ⟨-, -, -, -, -, -, -, -, a0, a1, -⟩ := maps0 t
  funext y
  show V c main_arg7 (((cfg0.win 3).blk t).view.emb y) = V c main_arg7 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega
theorem whole0_4 (c : Dev nD) (t : Fin cfg0.N) : blk0 V c 4 t = V c main_v13 := by
  obtain ⟨-, -, -, -, -, -, -, -, -, -, a0, a1, -⟩ := maps0 t
  funext y
  show V c main_v13 (((cfg0.win 4).blk t).view.emb y) = V c main_v13 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega
theorem whole0_5 (c : Dev nD) (t : Fin cfg0.N) : blk0 V c 5 t = V c main_arg9 := by
  obtain ⟨-, -, -, -, -, -, -, -, -, -, -, -, a0, a1, -⟩ := maps0 t
  funext y
  show V c main_arg9 (((cfg0.win 5).blk t).view.emb y) = V c main_arg9 y
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega
theorem whole0_6 (c : Dev nD) (t : Fin cfg0.N) : blk0 V c 6 t = V c main_v14 := by
  obtain ⟨-, -, -, -, -, -, -, -, -, -, -, -, -, -, a0, a1⟩ := maps0 t
  funext y
  show V c main_v14 (((cfg0.win 6).blk t).view.emb y) = V c main_v14 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Block t of the first operand holds rows 5000·t … of it. -/
theorem rows0 (c : Dev nD) (t : Fin cfg0.N) (ht : 5000 * t.val + 5000 ≤ 640000) (p : Fin 5000) (k : Fin 3) :
    blk0 V c 0 t (ix2 p k) = V c main_v11 (ix2 ⟨5000 * t.val + p.val, by have := p.isLt; omega⟩ k) := by
  obtain ⟨a0, a1, -⟩ := maps0 t
  show V c main_v11 (((cfg0.win 0).blk t).view.emb (ix2 p k)) = _
  refine congrArg _ (funext fun a => Fin.ext ?_)
  match a with
  | ⟨0, _⟩ => show win0_0.index t (0 : Fin 2) * 5000 + 1 * p.val = 5000 * t.val + p.val; omega
  | ⟨1, _⟩ => show win0_0.index t (1 : Fin 2) * 3 + 1 * k.val = k.val; omega

/-- WHAT POINT t WRITES BACK is block t of the whole-array stack. -/
theorem wrote0 (c : Dev nD) (t : Fin cfg0.N) :
    (dat0 V c).flushed 7 t = ((cfg0.win 7).blk t).view.read (Elt Ideal) (edgeArr V c) := by
  have htN : t.val < 128 := lt_of_lt_of_eq t.isLt N_0
  have ht : 5000 * t.val + 5000 ≤ 640000 := by omega
  show (cfg0.win 7).cut (grid0.coords t) ((dat0 V c).after 7 t) = _
  rw [after0_7, stored0_eq, whole0_1, whole0_2, whole0_3, whole0_4, whole0_5, whole0_6]
  obtain ⟨-, -, o0, o1, -⟩ := maps0 t
  funext j
  obtain ⟨p, q, rfl⟩ : ∃ (p : Fin 5000) (q : Fin 128), j = ix2 p q := ⟨j 0, j 1, eq_ix2 j⟩
  show k0_pay1 (F := Ideal) (blk0 V c 0 t) (V c main_arg5) (V c main_v12) (V c main_arg7) (V c main_v13) (V c main_arg9) (V c main_v14) (ix2 p q)
    = edgeArr V c (((cfg0.win 7).blk t).view.emb (ix2 p q))
  have hemb : ((cfg0.win 7).blk t).view.emb (ix2 p q) = ix2 ⟨5000 * t.val + p.val, by have := p.isLt; omega⟩ q := by
    funext a; apply Fin.ext
    match a with
    | ⟨0, _⟩ => show win0_7.index t (0 : Fin 2) * 5000 + 1 * p.val = 5000 * t.val + p.val; omega
    | ⟨1, _⟩ => show win0_7.index t (1 : Fin 2) * 128 + 1 * q.val = q.val; omega
  rw [hemb]
  exact pay0_rows (5000 * t.val) ht (blk0 V c 0 t) (V c main_v11) _ _ _ _ _ _ (rows0 V c t ht) p q

theorem mem_blk0 (t : Fin cfg0.N) (i : S640000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v15).slice (win0_7.rect t)).set ↔ _
  rw [View.set_slice_whole, Rect.mem_set_unit]
  exact Iff.rfl

/-- Every row of the result is in the block of the point that is its number divided by 5000. -/
theorem cover0 (i : S640000x128.Idx) : ∃ t : Fin cfg0.N, (cfg0.win 7).flush t = true ∧ i ∈ ((cfg0.win 7).blk t).view.set := by
  have hi0 : (i 0).val < 640000 := idx2_lt0 i
  have hi1 : (i 1).val < 128 := idx2_lt1 i
  obtain ⟨t, ht⟩ : ∃ t : Fin cfg0.N, t.val = (i 0).val / 5000 := ⟨⟨(i 0).val / 5000, by rw [show cfg0.N = 128 from N_0]; omega⟩, rfl⟩
  obtain ⟨-, -, o0, o1, -⟩ := maps0 t
  refine ⟨t, flush0_7 t, ?_⟩
  rw [mem_blk0]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega

/-- THE RESULT ARRAY of call 0 after the call: the whole-array stack of the arrays it found. -/
theorem result0 (c : Dev nD) : (dat0 V c).arrAt 7 cfg0.N = edgeArr V c :=
  (dat0 V c).arrAt_eq_of_cover 7 (edgeArr V c) (fun t _ => wrote0 V c t) cover0

/-! ## Call 1 -/

/-- What call 1 leaves in its result array. -/
def nodeArr (c : Dev nD) : FVec Ideal ⟨2, ![100000, 2]⟩ .f32 :=
  nodeStack (V c main_v36) (V c main_arg11) (V c main_v37) (V c main_arg13) (V c main_v38)

theorem whole1_1 (c : Dev nD) (t : Fin cfg1.N) : blk1 V c 1 t = V c main_arg11 := by
  obtain ⟨-, -, -, -, a0, a1, -⟩ := maps1 t
  funext y
  show V c main_arg11 (((cfg1.win 1).blk t).view.emb y) = V c main_arg11 y
  refine congrArg _ (funext fun a => Fin.ext ?_)
  match a with
  | ⟨0, _⟩ => show win1_1.index t (0 : Fin 2) * 131 + 1 * (y 0).val = (y 0).val; omega
  | ⟨1, _⟩ => show win1_1.index t (1 : Fin 2) * 131 + 1 * (y 1).val = (y 1).val; omega
theorem whole1_2 (c : Dev nD) (t : Fin cfg1.N) : blk1 V c 2 t = V c main_v37 := by
  obtain ⟨-, -, -, -, -, -, a0, a1, -⟩ := maps1 t
  funext y
  show V c main_v37 (((cfg1.win 2).blk t).view.emb y) = V c main_v37 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 131 + 1 * (y 1).val = (y 1).val; omega
theorem whole1_3 (c : Dev nD) (t : Fin cfg1.N) : blk1 V c 3 t = V c main_arg13 := by
  obtain ⟨-, -, -, -, -, -, -, -, a0, a1, -⟩ := maps1 t
  funext y
  show V c main_arg13 (((cfg1.win 3).blk t).view.emb y) = V c main_arg13 y
  refine congrArg _ (funext fun a => Fin.ext ?_)
  match a with
  | ⟨0, _⟩ => show win1_3.index t (0 : Fin 2) * 131 + 1 * (y 0).val = (y 0).val; omega
  | ⟨1, _⟩ => show win1_3.index t (1 : Fin 2) * 2 + 1 * (y 1).val = (y 1).val; omega
theorem whole1_4 (c : Dev nD) (t : Fin cfg1.N) : blk1 V c 4 t = V c main_v38 := by
  obtain ⟨-, -, -, -, -, -, -, -, -, -, a0, a1⟩ := maps1 t
  funext y
  show V c main_v38 (((cfg1.win 4).blk t).view.emb y) = V c main_v38 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 2 + 1 * (y 1).val = (y 1).val; omega

theorem rows1 (c : Dev nD) (t : Fin cfg1.N) (ht : 5000 * t.val + 5000 ≤ 100000) (p : Fin 5000) (k : Fin 131) :
    blk1 V c 0 t (ix2 p k) = V c main_v36 (ix2 ⟨5000 * t.val + p.val, by have := p.isLt; omega⟩ k) := by
  obtain ⟨a0, a1, -⟩ := maps1 t
  show V c main_v36 (((cfg1.win 0).blk t).view.emb (ix2 p k)) = _
  refine congrArg _ (funext fun a => Fin.ext ?_)
  match a with
  | ⟨0, _⟩ => show win1_0.index t (0 : Fin 2) * 5000 + 1 * p.val = 5000 * t.val + p.val; omega
  | ⟨1, _⟩ => show win1_0.index t (1 : Fin 2) * 131 + 1 * k.val = k.val; omega

theorem wrote1 (c : Dev nD) (t : Fin cfg1.N) :
    (dat1 V c).flushed 5 t = ((cfg1.win 5).blk t).view.read (Elt Ideal) (nodeArr V c) := by
  have htN : t.val < 20 := lt_of_lt_of_eq t.isLt N_1
  have ht : 5000 * t.val + 5000 ≤ 100000 := by omega
  show (cfg1.win 5).cut (grid1.coords t) ((dat1 V c).after 5 t) = _
  rw [after1_5, stored1_eq, whole1_1, whole1_2, whole1_3, whole1_4]
  obtain ⟨-, -, o0, o1, -⟩ := maps1 t
  funext j
  obtain ⟨p, q, rfl⟩ : ∃ (p : Fin 5000) (q : Fin 2), j = ix2 p q := ⟨j 0, j 1, eq_ix2 j⟩
  show k1_pay1 (F := Ideal) (blk1 V c 0 t) (V c main_arg11) (V c main_v37) (V c main_arg13) (V c main_v38) (ix2 p q)
    = nodeArr V c (((cfg1.win 5).blk t).view.emb (ix2 p q))
  have hemb : ((cfg1.win 5).blk t).view.emb (ix2 p q) = ix2 ⟨5000 * t.val + p.val, by have := p.isLt; omega⟩ q := by
    funext a; apply Fin.ext
    match a with
    | ⟨0, _⟩ => show win1_5.index t (0 : Fin 2) * 5000 + 1 * p.val = 5000 * t.val + p.val; omega
    | ⟨1, _⟩ => show win1_5.index t (1 : Fin 2) * 2 + 1 * q.val = q.val; omega
  rw [hemb]
  exact pay1_rows (5000 * t.val) ht (blk1 V c 0 t) (V c main_v36) _ _ _ _ (rows1 V c t ht) p q

theorem mem_blk1 (t : Fin cfg1.N) (i : S100000x2.Idx) :
    i ∈ ((cfg1.win 5).blk t).view.set ↔ ∀ a : Fin 2, win1_5.index t a * S5000x2.size a ≤ (i a).val ∧ (i a).val < win1_5.index t a * S5000x2.size a + S5000x2.size a := by
  show i ∈ ((View.whole main_v39).slice (win1_5.rect t)).set ↔ _
  rw [View.set_slice_whole, Rect.mem_set_unit]
  exact Iff.rfl

theorem cover1 (i : S100000x2.Idx) : ∃ t : Fin cfg1.N, (cfg1.win 5).flush t = true ∧ i ∈ ((cfg1.win 5).blk t).view.set := by
  have hi0 : (i 0).val < 100000 := idx2_lt0 i
  have hi1 : (i 1).val < 2 := idx2_lt1 i
  obtain ⟨t, ht⟩ : ∃ t : Fin cfg1.N, t.val = (i 0).val / 5000 := ⟨⟨(i 0).val / 5000, by rw [show cfg1.N = 20 from N_1]; omega⟩, rfl⟩
  obtain ⟨-, -, o0, o1, -⟩ := maps1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 2 ≤ (i 1).val ∧ (i 1).val < win1_5.index t (1 : Fin 2) * 2 + 2; omega

/-- THE RESULT ARRAY of call 1 after the call. -/
theorem result1 (c : Dev nD) : (dat1 V c).arrAt 5 cfg1.N = nodeArr V c :=
  (dat1 V c).arrAt_eq_of_cover 5 (nodeArr V c) (fun t _ => wrote1 V c t) cover1

end Arrays

end Cert.KernelIdeal.TwoCalls

end
-- ==== Proof.Mid.lean ====
/-
  The two programs compute one function of their arguments, at the ideal values.

  Both gather the source node's features along every edge, append the edge attribute, push the [640000, 3] array through a
  three-layer stack (rectifiers after the first two layers), add the rows up per destination node and divide by the count
  (at least one), append the node features and the graph attribute, and push the [100000, 131] array through a two-layer
  stack. The host operations around the stacks are the same operations in both programs, in the same order, so nothing about
  gathers, scatters or concatenations is needed beyond their being the same functions of the same operands. The stacks
  differ in where they run: the reference applies each to the whole array on the host; the kernel runs each in a pipelined
  call, 5000 rows at a time, each bias first cast from a vector to a one-row matrix. A row of a stack's result depends on the
  same row of its input only, and a vector cast to one row is the vector broadcast along a new unit axis, so the arrays
  agree entry by entry. No entry needs to be finite: both sides are the same sums of the same products.
-/
import proofs.«122312_j30777735643492_1_alg».proof.Proof.KIValue
import proofs.«122312_j30777735643492_1_alg».proof.Proof.Gen.ReferenceIdeal.Read

set_option maxRecDepth 16384

noncomputable section

namespace Cert.Bridge

open Idealize.ShloMosaic Idealize.ShloMosaic.TcCoe Idealize.ShloMosaic.ValueIdx Idealize.SL.Sem Idealize.ShloMosaic.StableHlo
open Cert.Layers Cert.Mlp
open Cert.KernelIdeal.TwoCalls (edgeStack nodeStack)

/-- An array of the given shape and element type, at the ideal values. -/
abbrev C (s : Shape) (e : EltTy) : Type := (⟨s, e⟩ : BufTy).Contents (Elt Ideal)

/-! ## The reference, as the two stacks around the middle stretch -/

section Reference

open Cert.ReferenceIdeal Cert.ReferenceIdeal.Gen Cert.ReferenceIdeal.Read

/-- The host operations between the two stacks, as one function of the first stack's result `H`, the node features, the
    destination index of every edge, the graph attribute and the nodes' graph numbers: the per-node mean of the rows of `H`
    (a scatter-add divided by the count, at least one) between the node features and the gathered graph attribute. -/
def mid (H : C S640000x128 .f32) (x0 : C S100000x2 .f32) (d : C S640000 .i32) (x3 : C S64 .f32) (x4 : C S100000 .i32) : C S100000x131 .f32 :=
  concatenate S100000x131 1 [⟨S100000x2, x0⟩,
    ⟨S100000x128, Host.divf (F := Ideal) (φ := .f32) (Host.scatterAdd (F := Ideal) (φ := .f32) scatter_S100000x128_S640000x1_S640000x128_1_0_0_1 (val_main_v28 (F := Ideal))
        (broadcastInDim S640000x1 ![0] bcast_S640000_S640000x1_0 d) H)
      (broadcastInDim S100000x128 ![0, 1] bcast_S100000x1_S100000x128_0_1 (broadcastInDim S100000x1 ![0] bcast_S100000_S100000x1_0
        (maximumf (F := Ideal) (φ := .f32) (Host.scatterAdd (F := Ideal) (φ := .f32) scatter_S100000_S640000x1_S640000_n_0_0_1 (val_main_v32 (F := Ideal))
            (broadcastInDim S640000x1 ![0] bcast_S640000_S640000x1_0 d) (val_main_v31 (F := Ideal))) (val_main_v35 (F := Ideal)))))⟩,
    ⟨S100000x1, val_main_v47 (F := Ideal) x3 x4⟩] concatenates_S100000x2_S100000x128_S100000x1_S100000x131_d1

theorem ref_mid (x0 : C S100000x2 .f32) (x1 : C S2x640000 .i32) (x2 : C S640000x1 .f32) (x3 : C S64 .f32) (x4 : C S100000 .i32) (x5 : C S3x128 .f32) (x6 : C S128 .f32) (x7 : C S128x128 .f32) (x8 : C S128 .f32) (x9 : C S128x128 .f32) (x10 : C S128 .f32) :
    val_main_v48 (F := Ideal) x0 x1 x2 x3 x4 x5 x6 x7 x8 x9 x10
      = mid (val_main_v27 (F := Ideal) x0 x1 x2 x5 x6 x7 x8 x9 x10) x0 (val_main_v3 (F := Ideal) x1) x3 x4 := rfl

theorem ref_edge (x0 : C S100000x2 .f32) (x1 : C S2x640000 .i32) (x2 : C S640000x1 .f32) (x5 : C S3x128 .f32) (x6 : C S128 .f32) (x7 : C S128x128 .f32) (x8 : C S128 .f32) (x9 : C S128x128 .f32) (x10 : C S128 .f32) :
    val_main_v27 (F := Ideal) x0 x1 x2 x5 x6 x7 x8 x9 x10
      = edgeStack (val_main_v11 (F := Ideal) x0 x1 x2) x5 (val_main_v13 (F := Ideal) x6) x7 (val_main_v19 (F := Ideal) x8) x9 (val_main_v25 (F := Ideal) x10) := rfl

theorem ref_node (x0 : C S100000x2 .f32) (x1 : C S2x640000 .i32) (x2 : C S640000x1 .f32) (x3 : C S64 .f32) (x4 : C S100000 .i32) (x5 : C S3x128 .f32) (x6 : C S128 .f32) (x7 : C S128x128 .f32) (x8 : C S128 .f32) (x9 : C S128x128 .f32) (x10 : C S128 .f32) (x11 : C S131x131 .f32) (x12 : C S131 .f32) (x13 : C S131x2 .f32) (x14 : C S2 .f32) :
    val_main_v58 (F := Ideal) x0 x1 x2 x3 x4 x5 x6 x7 x8 x9 x10 x11 x12 x13 x14
      = nodeStack (val_main_v48 (F := Ideal) x0 x1 x2 x3 x4 x5 x6 x7 x8 x9 x10) x11 (val_main_v50 (F := Ideal) x12) x13 (val_main_v56 (F := Ideal) x14) := rfl

/-- A bias vector broadcast to one row is the vector cast to one row. -/
theorem row128 (x : C S128 .f32) (h : (⟨1, ![128]⟩ : Shape).ShapeCasts ⟨2, ![1, 128]⟩) :
    shapeCast ⟨2, ![1, 128]⟩ x h = broadcastInDim S1x128 ![1] bcast_S128_S1x128_1 x := rowCast_eq_bcast x h bcast_S128_S1x128_1
theorem row131 (x : C S131 .f32) (h : (⟨1, ![131]⟩ : Shape).ShapeCasts ⟨2, ![1, 131]⟩) :
    shapeCast ⟨2, ![1, 131]⟩ x h = broadcastInDim S1x131 ![1] bcast_S131_S1x131_1 x := rowCast_eq_bcast x h bcast_S131_S1x131_1
theorem row2 (x : C S2 .f32) (h : (⟨1, ![2]⟩ : Shape).ShapeCasts ⟨2, ![1, 2]⟩) :
    shapeCast ⟨2, ![1, 2]⟩ x h = broadcastInDim S1x2 ![1] bcast_S2_S1x2_1 x := rowCast_eq_bcast x h bcast_S2_S1x2_1

/-- The reference's result, with each bias as the vector cast to one row. -/
theorem ref_result (x0 : C S100000x2 .f32) (x1 : C S2x640000 .i32) (x2 : C S640000x1 .f32) (x3 : C S64 .f32) (x4 : C S100000 .i32) (x5 : C S3x128 .f32) (x6 : C S128 .f32) (x7 : C S128x128 .f32) (x8 : C S128 .f32) (x9 : C S128x128 .f32) (x10 : C S128 .f32) (x11 : C S131x131 .f32) (x12 : C S131 .f32) (x13 : C S131x2 .f32) (x14 : C S2 .f32) (h128 : (⟨1, ![128]⟩ : Shape).ShapeCasts ⟨2, ![1, 128]⟩) (h131 : (⟨1, ![131]⟩ : Shape).ShapeCasts ⟨2, ![1, 131]⟩)
    (h2 : (⟨1, ![2]⟩ : Shape).ShapeCasts ⟨2, ![1, 2]⟩) :
    val_main_v58 (F := Ideal) x0 x1 x2 x3 x4 x5 x6 x7 x8 x9 x10 x11 x12 x13 x14
      = nodeStack (mid (edgeStack (val_main_v11 (F := Ideal) x0 x1 x2) x5 (shapeCast ⟨2, ![1, 128]⟩ x6 h128) x7 (shapeCast ⟨2, ![1, 128]⟩ x8 h128) x9
            (shapeCast ⟨2, ![1, 128]⟩ x10 h128)) x0 (val_main_v3 (F := Ideal) x1) x3 x4)
          x11 (shapeCast ⟨2, ![1, 131]⟩ x12 h131) x13 (shapeCast ⟨2, ![1, 2]⟩ x14 h2) := by
  rw [ref_node, ref_mid, ref_edge, row128 x6 h128, row128 x8 h128, row128 x10 h128, row131 x12 h131, row2 x14 h2]
  rfl

end Reference

end Cert.Bridge

end
-- ==== Proof.LibNary3.lean ====
/-
  A host operation with a LITERAL family of three operand references — a three-operand concatenation — read at
  its result buffer: the operation's function applied to the three operands' contents, each at its own reference.
-/
import Idealize.ShloMosaic.Lib.StableHlo.Run

noncomputable section

namespace Cert.Lib.Nary3

open Idealize.ShloMosaic Idealize.ShloMosaic.StableHlo

variable {τ : Topo} {sig : RefSig} {Val : EltTy → Type} {x a b y : Ref sig .tc}

/-- The result of an n-ary host operation over the literal family `![x, a, b]`, at its own result buffer, is its
    function of the family whose member `k` is the contents of the `k`-th reference, spelt `Fin.cons` by `Fin.cons`:
    each operand's contents then stands at a literal reference, where the single-operation result lemmas apply to it
    (under the binder of `fun k => F (![x, a, b] k)` they do not). Any buffer types, any valuation. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.Lib.Nary3

end
-- ==== Proof.HostRead.lean ====
/-
  The kernel's two host stretches, read off any contents of the buffers: each buffer a stretch writes, as the stretch's
  operations applied to the contents of the buffers it reads. The first stretch makes the edge array (the source node's
  features gathered along every edge, beside the edge attribute), the destination index of every edge, and each bias of the
  first stack as a one-row matrix; the second makes the node array from what the first call left, and the second stack's
  one-row biases. The operations are the reference's own, so each result is stated as the reference's stage of the same
  operands.
-/
import proofs.«122312_j30777735643492_1_alg».proof.Proof.Mid
import proofs.«122312_j30777735643492_1_alg».proof.Proof.LibNary3
import Idealize.ShloMosaic.Lib.StableHlo.Run

set_option maxRecDepth 16384

noncomputable section

namespace Cert.Bridge

open Idealize.ShloMosaic Idealize.ShloMosaic.TcCoe Idealize.ShloMosaic.ValueIdx Idealize.SL.Sem Idealize.ShloMosaic.StableHlo

section Kernel

open Cert.KernelIdeal Cert.KernelIdeal.Gen Cert.KernelIdeal.TwoCalls

variable (G : Valuation τ sig (Elt Ideal))

/-- After the first stretch the edge array is the gathered source features beside the edge attribute, -/
theorem pre_edges : (StableHlo.after hostOps0 G (Proc.devRef .tc main_v11) : C Cert.ReferenceIdeal.S640000x3 .f32)
    = Cert.ReferenceIdeal.Read.val_main_v11 (F := Ideal) (G (Proc.devRef .tc main_arg0)) (G (Proc.devRef .tc main_arg1)) (G (Proc.devRef .tc main_arg2)) := by
  after_results_simp <;> rfl
/-- the destination indices are row 1 of the edge index, -/
theorem pre_dst : (StableHlo.after hostOps0 G (Proc.devRef .tc main_v3) : C Cert.ReferenceIdeal.S640000 .i32)
    = Cert.ReferenceIdeal.Read.val_main_v3 (F := Ideal) (G (Proc.devRef .tc main_arg1)) := by
  after_results_simp <;> rfl
/-- and each bias of the first stack is its vector cast to one row. -/
theorem pre_b1 : (StableHlo.after hostOps0 G (Proc.devRef .tc main_v12) : C S1x128 .f32)
    = shapeCast S1x128 (G (Proc.devRef .tc main_arg6) : C S128 .f32) shapeCasts_S128_S1x128 := by
  after_results_simp <;> rfl
theorem pre_b2 : (StableHlo.after hostOps0 G (Proc.devRef .tc main_v13) : C S1x128 .f32)
    = shapeCast S1x128 (G (Proc.devRef .tc main_arg8) : C S128 .f32) shapeCasts_S128_S1x128 := by
  after_results_simp <;> rfl
theorem pre_b3 : (StableHlo.after hostOps0 G (Proc.devRef .tc main_v14) : C S1x128 .f32)
    = shapeCast S1x128 (G (Proc.devRef .tc main_arg10) : C S128 .f32) shapeCasts_S128_S1x128 := by
  after_results_simp <;> rfl

/-- Running two lists of host operations one after the other is running their concatenation. -/
theorem after_append {Val : EltTy → Type} (l1 l2 : List (HloOp τ sig Val)) (V : Valuation τ sig Val) :
    StableHlo.after (l1 ++ l2) V = StableHlo.after l2 (StableHlo.after l1 V) := by
  induction l1 generalizing V with
  | nil => rfl
  | cons op l ih => exact ih (op.result V)

/-- The second stretch's operations before the concatenation that makes the node array. -/
def beforeJoin {F : FTy → Type} [FloatOps F] : List (HloOp τ sig (Elt F)) :=
  [ StableHlo.nullary main_cst (constant S_ .f32 0x00000000#32),
    StableHlo.unary main_cst main_v16 (broadcastInDim S100000x128 ![] bcast_S_S100000x128 : (⟨S_, .f32⟩ : BufTy).Contents (Elt F) → (⟨S100000x128, .f32⟩ : BufTy).Contents (Elt F)),
    StableHlo.unary main_v3 main_v17 (broadcastInDim S640000x1 ![0] bcast_S640000_S640000x1_0 : (⟨S640000, .i32⟩ : BufTy).Contents (Elt F) → (⟨S640000x1, .i32⟩ : BufTy).Contents (Elt F)),
    StableHlo.ternary main_v16 main_v17 main_v15 main_v18 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.nullary main_cst_1 (constant S_ .f32 0x3F800000#32),
    StableHlo.unary main_cst_1 main_v19 (broadcastInDim S640000 ![] bcast_S_S640000 : (⟨S_, .f32⟩ : BufTy).Contents (Elt F) → (⟨S640000, .f32⟩ : BufTy).Contents (Elt F)),
    StableHlo.nullary main_cst_2 (constant S_ .f32 0x00000000#32),
    StableHlo.unary main_cst_2 main_v20 (broadcastInDim S100000 ![] bcast_S_S100000 : (⟨S_, .f32⟩ : BufTy).Contents (Elt F) → (⟨S100000, .f32⟩ : BufTy).Contents (Elt F)),
    StableHlo.unary main_v3 main_v21 (broadcastInDim S640000x1 ![0] bcast_S640000_S640000x1_0 : (⟨S640000, .i32⟩ : BufTy).Contents (Elt F) → (⟨S640000x1, .i32⟩ : BufTy).Contents (Elt F)),
    StableHlo.ternary main_v20 main_v21 main_v19 main_v22 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_3 (constant S_ .f32 0x3F800000#32),
    StableHlo.unary main_cst_3 main_v23 (broadcastInDim S100000 ![] bcast_S_S100000 : (⟨S_, .f32⟩ : BufTy).Contents (Elt F) → (⟨S100000, .f32⟩ : BufTy).Contents (Elt F)),
    StableHlo.binary main_v22 main_v23 main_v24 (maximumf : (⟨S100000, .f32⟩ : BufTy).Contents (Elt F) → (⟨S100000, .f32⟩ : BufTy).Contents (Elt F) → (⟨S100000, .f32⟩ : BufTy).Contents (Elt F)),
    StableHlo.unary main_v24 main_v25 (broadcastInDim S100000x1 ![0] bcast_S100000_S100000x1_0 : (⟨S100000, .f32⟩ : BufTy).Contents (Elt F) → (⟨S100000x1, .f32⟩ : BufTy).Contents (Elt F)),
    StableHlo.unary main_v25 main_v26 (broadcastInDim S100000x128 ![0, 1] bcast_S100000x1_S100000x128_0_1 : (⟨S100000x1, .f32⟩ : BufTy).Contents (Elt F) → (⟨S100000x128, .f32⟩ : BufTy).Contents (Elt F)),
    StableHlo.binary main_v18 main_v26 main_v27 (Host.divf : (⟨S100000x128, .f32⟩ : BufTy).Contents (Elt F) → (⟨S100000x128, .f32⟩ : BufTy).Contents (Elt F) → (⟨S100000x128, .f32⟩ : BufTy).Contents (Elt F)),
    StableHlo.reshape main_arg3 main_v28 rfl shapeCasts_S64_S64x1,
    StableHlo.nullary main_c_4 (constantI S_ 32 0#32),
    StableHlo.unary main_c_4 main_v29 (broadcastInDim S100000 ![] bcast_S_S100000 : (⟨S_, .i32⟩ : BufTy).Contents (Elt F) → (⟨S100000, .i32⟩ : BufTy).Contents (Elt F)),
    StableHlo.binary main_arg4 main_v29 main_v30 (cmpi .slt : (⟨S100000, .i32⟩ : BufTy).Contents (Elt F) → (⟨S100000, .i32⟩ : BufTy).Contents (Elt F) → (⟨S100000, .i1⟩ : BufTy).Contents (Elt F)),
    StableHlo.nullary main_c_5 (constantI S_ 32 64#32),
    StableHlo.unary main_c_5 main_v31 (broadcastInDim S100000 ![] bcast_S_S100000 : (⟨S_, .i32⟩ : BufTy).Contents (Elt F) → (⟨S100000, .i32⟩ : BufTy).Contents (Elt F)),
    StableHlo.binary main_arg4 main_v31 main_v32 (addi : (⟨S100000, .i32⟩ : BufTy).Contents (Elt F) → (⟨S100000, .i32⟩ : BufTy).Contents (Elt F) → (⟨S100000, .i32⟩ : BufTy).Contents (Elt F)),
    StableHlo.ternary main_v30 main_v32 main_arg4 main_v33 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v33 main_v34 (broadcastInDim S100000x1 ![0] bcast_S100000_S100000x1_0 : (⟨S100000, .i32⟩ : BufTy).Contents (Elt F) → (⟨S100000x1, .i32⟩ : BufTy).Contents (Elt F)),
    StableHlo.binary main_v28 main_v34 main_v35 ((fun x i => Host.gather gather_S64x1_S100000x1_S100000x1_1_0_n_n_0_1_11 x i) : (⟨S64x1, .f32⟩ : BufTy).Contents (Elt F) → (⟨S100000x1, .i32⟩ : BufTy).Contents (Elt F) → (⟨S100000x1, .f32⟩ : BufTy).Contents (Elt F)) ]

theorem hostOps1_split {F : FTy → Type} [FloatOps F] : (hostOps1 : List (HloOp τ sig (Elt F))) = beforeJoin ++
    [ StableHlo.nary ![main_arg0, main_v27, main_v35] main_v36 (fun u => concatenate S100000x131 1 [⟨S100000x2, u 0⟩, ⟨S100000x128, u 1⟩, ⟨S100000x1, u 2⟩] concatenates_S100000x2_S100000x128_S100000x1_S100000x131_d1),
      StableHlo.reshape main_arg12 main_v37 rfl shapeCasts_S131_S1x131,
      StableHlo.reshape main_arg14 main_v38 rfl shapeCasts_S2_S1x2 ] := rfl

/-- The per-node mean of the rows of `H`: the scatter-add by destination divided by the number of arrivals (at least one). -/
def meanPart (H : C Cert.ReferenceIdeal.S640000x128 .f32) (d : C Cert.ReferenceIdeal.S640000 .i32) : C Cert.ReferenceIdeal.S100000x128 .f32 :=
  Host.divf (F := Ideal) (φ := .f32) (Host.scatterAdd (F := Ideal) (φ := .f32) Cert.ReferenceIdeal.scatter_S100000x128_S640000x1_S640000x128_1_0_0_1 (Cert.ReferenceIdeal.Read.val_main_v28 (F := Ideal))
      (broadcastInDim Cert.ReferenceIdeal.S640000x1 ![0] Cert.ReferenceIdeal.Gen.bcast_S640000_S640000x1_0 d) H)
    (broadcastInDim Cert.ReferenceIdeal.S100000x128 ![0, 1] Cert.ReferenceIdeal.Gen.bcast_S100000x1_S100000x128_0_1 (broadcastInDim Cert.ReferenceIdeal.S100000x1 ![0] Cert.ReferenceIdeal.Gen.bcast_S100000_S100000x1_0
      (maximumf (F := Ideal) (φ := .f32) (Host.scatterAdd (F := Ideal) (φ := .f32) Cert.ReferenceIdeal.scatter_S100000_S640000x1_S640000_n_0_0_1 (Cert.ReferenceIdeal.Read.val_main_v32 (F := Ideal))
          (broadcastInDim Cert.ReferenceIdeal.S640000x1 ![0] Cert.ReferenceIdeal.Gen.bcast_S640000_S640000x1_0 d) (Cert.ReferenceIdeal.Read.val_main_v31 (F := Ideal))) (Cert.ReferenceIdeal.Read.val_main_v35 (F := Ideal)))))

theorem mid_eq (H : C Cert.ReferenceIdeal.S640000x128 .f32) (x0 : C Cert.ReferenceIdeal.S100000x2 .f32) (d : C Cert.ReferenceIdeal.S640000 .i32) (x3 : C Cert.ReferenceIdeal.S64 .f32) (x4 : C Cert.ReferenceIdeal.S100000 .i32) :
    mid H x0 d x3 x4 = concatenate Cert.ReferenceIdeal.S100000x131 1 [⟨Cert.ReferenceIdeal.S100000x2, x0⟩, ⟨Cert.ReferenceIdeal.S100000x128, meanPart H d⟩,
      ⟨Cert.ReferenceIdeal.S100000x1, Cert.ReferenceIdeal.Read.val_main_v47 (F := Ideal) x3 x4⟩] Cert.ReferenceIdeal.Gen.concatenates_S100000x2_S100000x128_S100000x1_S100000x131_d1 := rfl

theorem join_x : (StableHlo.after beforeJoin G (Proc.devRef .tc main_arg0) : C Cert.ReferenceIdeal.S100000x2 .f32) = G (Proc.devRef .tc main_arg0) := by
  unfold beforeJoin
  after_results_simp <;> rfl
theorem join_mean : (StableHlo.after beforeJoin G (Proc.devRef .tc main_v27) : C Cert.ReferenceIdeal.S100000x128 .f32)
    = meanPart (G (Proc.devRef .tc main_v15)) (G (Proc.devRef .tc main_v3)) := by
  unfold beforeJoin
  after_results_simp <;> rfl
theorem join_attr : (StableHlo.after beforeJoin G (Proc.devRef .tc main_v35) : C Cert.ReferenceIdeal.S100000x1 .f32)
    = Cert.ReferenceIdeal.Read.val_main_v47 (F := Ideal) (G (Proc.devRef .tc main_arg3)) (G (Proc.devRef .tc main_arg4)) := by
  unfold beforeJoin
  after_results_simp <;> rfl

/-- After the second stretch the node array is the middle stretch of what the first call left, -/
theorem post_nodes : (StableHlo.after hostOps1 G (Proc.devRef .tc main_v36) : C Cert.ReferenceIdeal.S100000x131 .f32)
    = mid (G (Proc.devRef .tc main_v15)) (G (Proc.devRef .tc main_arg0)) (G (Proc.devRef .tc main_v3)) (G (Proc.devRef .tc main_arg3)) (G (Proc.devRef .tc main_arg4)) := by
  rw [hostOps1_split (F := Ideal), after_append]
  simp (disch := decide) only [after_cons, after_nil, reshape_result_ne']
  rw [nary_result]
  show concatenate S100000x131 1 [⟨S100000x2, StableHlo.after beforeJoin G (Proc.devRef .tc main_arg0)⟩,
    ⟨S100000x128, StableHlo.after beforeJoin G (Proc.devRef .tc main_v27)⟩, ⟨S100000x1, StableHlo.after beforeJoin G (Proc.devRef .tc main_v35)⟩]
    concatenates_S100000x2_S100000x128_S100000x1_S100000x131_d1 = _
  rw [join_x, join_mean, join_attr, mid_eq]
/-- and each bias of the second stack is its vector cast to one row. -/
theorem post_b4 : (StableHlo.after hostOps1 G (Proc.devRef .tc main_v37) : C S1x131 .f32)
    = shapeCast S1x131 (G (Proc.devRef .tc main_arg12) : C S131 .f32) shapeCasts_S131_S1x131 := by
  after_results_simp <;> rfl
theorem post_b5 : (StableHlo.after hostOps1 G (Proc.devRef .tc main_v38) : C S1x2 .f32)
    = shapeCast S1x2 (G (Proc.devRef .tc main_arg14) : C S2 .f32) shapeCasts_S2_S1x2 := by
  after_results_simp <;> rfl

end Kernel

end Cert.Bridge

end
-- ==== Proof.Final.lean ====
/-
  The idealized kernel's result array, followed back from the end of its run to its arguments, is the reference's result
  of the same arguments.

  At the end the result array holds what the second call's write-backs leave: the two-layer stack of the node array, the
  second call's weights and its one-row biases. The node array was made by the middle host stretch from what the first call
  left; that is the three-layer stack of the edge array, the first call's weights and its one-row biases; the edge array and
  the one-row biases were made by the first host stretch from the arguments. No item writes an argument, so wherever an
  argument is read it holds its launch contents.
-/
import proofs.«122312_j30777735643492_1_alg».proof.Proof.HostRead

set_option maxRecDepth 16384

noncomputable section

namespace Cert.Bridge

open Idealize.ShloMosaic Idealize.ShloMosaic.TcCoe Idealize.ShloMosaic.ValueIdx Idealize.SL.Sem Idealize.ShloMosaic.StableHlo
open Cert.KernelIdeal Cert.KernelIdeal.Gen Cert.KernelIdeal.TwoCalls

variable (m : (ℓ : Loc nD τ sig) → Buf (Elt Ideal) ℓ) (ρ : Dev nD → PrngReg)

/-- An argument, or any buffer the first stretch does not write, is at its launch contents when the first call is entered, -/
theorem at1 (c : Dev nD) (r : Ref sig .tc) (h : r ∉ hostOps0_W) : W1 m ρ c (Proc.devRef .tc r) = m ((c : Thread nD τ).loc r) :=
  (W1_keeps m ρ c r h).trans rfl
/-- and, if it is no array of the first call either, still when that call is left. -/
theorem at2 (c : Dev nD) (r : Ref sig .tc) (h : r ∉ hostOps0_W) (h' : ∀ w, Pipeline.arrRef spec0 w ≠ r) :
    W2 m ρ c (Proc.devRef .tc r) = m ((c : Thread nD τ).loc r) :=
  (W2_of_ne m ρ c r h').trans (at1 m ρ c r h)

/-- What the first call leaves in its result array, from the arguments. -/
theorem left_by_call0 (c : Dev nD) :
    (W2 m ρ c (Proc.devRef .tc main_v15) : C Cert.ReferenceIdeal.S640000x128 .f32)
      = edgeStack (Cert.ReferenceIdeal.Read.val_main_v11 (F := Ideal) (m ((c : Thread nD τ).loc main_arg0)) (m ((c : Thread nD τ).loc main_arg1)) (m ((c : Thread nD τ).loc main_arg2))) (m ((c : Thread nD τ).loc main_arg5))
          (shapeCast S1x128 (m ((c : Thread nD τ).loc main_arg6)) shapeCasts_S128_S1x128) (m ((c : Thread nD τ).loc main_arg7)) (shapeCast S1x128 (m ((c : Thread nD τ).loc main_arg8)) shapeCasts_S128_S1x128) (m ((c : Thread nD τ).loc main_arg9))
          (shapeCast S1x128 (m ((c : Thread nD τ).loc main_arg10)) shapeCasts_S128_S1x128) :=
  (W2_arr m ρ c 7).trans <| (result0 (T1 m ρ) c).trans <|
    congr (congr (congr (congr (congr (congr (congrArg edgeStack (pre_edges (W0 m ρ c))) (at1 m ρ c main_arg5 (by decide)))
      (pre_b1 (W0 m ρ c))) (at1 m ρ c main_arg7 (by decide))) (pre_b2 (W0 m ρ c))) (at1 m ρ c main_arg9 (by decide))) (pre_b3 (W0 m ρ c))

/-- The node array the second call is entered with, from the arguments. -/
theorem node_array (c : Dev nD) :
    (W3 m ρ c (Proc.devRef .tc main_v36) : C Cert.ReferenceIdeal.S100000x131 .f32)
      = mid (edgeStack (Cert.ReferenceIdeal.Read.val_main_v11 (F := Ideal) (m ((c : Thread nD τ).loc main_arg0)) (m ((c : Thread nD τ).loc main_arg1)) (m ((c : Thread nD τ).loc main_arg2))) (m ((c : Thread nD τ).loc main_arg5))
            (shapeCast S1x128 (m ((c : Thread nD τ).loc main_arg6)) shapeCasts_S128_S1x128) (m ((c : Thread nD τ).loc main_arg7)) (shapeCast S1x128 (m ((c : Thread nD τ).loc main_arg8)) shapeCasts_S128_S1x128) (m ((c : Thread nD τ).loc main_arg9))
            (shapeCast S1x128 (m ((c : Thread nD τ).loc main_arg10)) shapeCasts_S128_S1x128))
          (m ((c : Thread nD τ).loc main_arg0)) (Cert.ReferenceIdeal.Read.val_main_v3 (F := Ideal) (m ((c : Thread nD τ).loc main_arg1))) (m ((c : Thread nD τ).loc main_arg3)) (m ((c : Thread nD τ).loc main_arg4)) :=
  (post_nodes (W2 m ρ c)).trans <|
    congr (congr (congr (congr (congrArg mid (left_by_call0 m ρ c)) (at2 m ρ c main_arg0 (by decide) (by decide)))
      ((W2_of_ne m ρ c main_v3 (by decide)).trans (pre_dst (W0 m ρ c)))) (at2 m ρ c main_arg3 (by decide) (by decide)))
      (at2 m ρ c main_arg4 (by decide) (by decide))

/-- THE KERNEL'S RESULT is the reference's final stage of the kernel's arguments. -/
theorem kernel_result (c : Dev nD) :
    (W4 m ρ c (Proc.devRef .tc main_v39) : C Cert.ReferenceIdeal.S100000x2 .f32)
      = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [ref_result _ _ _ _ _ _ _ _ _ _ _ _ _ _ _ shapeCasts_S128_S1x128 shapeCasts_S131_S1x131 shapeCasts_S2_S1x2]
  exact (W4_arr m ρ c 5).trans <| (result1 (T3 m ρ) c).trans <|
    congr (congr (congr (congr (congrArg nodeStack (node_array m ρ c))
      ((W3_keeps m ρ c main_arg11 (by decide)).trans (at2 m ρ c main_arg11 (by decide) (by decide))))
      ((post_b4 (W2 m ρ c)).trans (congrArg (fun x => shapeCast S1x131 x shapeCasts_S131_S1x131) (at2 m ρ c main_arg12 (by decide) (by decide)))))
      ((W3_keeps m ρ c main_arg13 (by decide)).trans (at2 m ρ c main_arg13 (by decide) (by decide))))
      ((post_b5 (W2 m ρ c)).trans (congrArg (fun x => shapeCast S1x2 x shapeCasts_S2_S1x2) (at2 m ρ c main_arg14 (by decide) (by decide))))

end Cert.Bridge

end
-- ==== Proof.lean ====
/-
  A message-passing layer on a graph of 100000 nodes and 640000 edges: along every edge the source node's two features and the
  edge's attribute go through a three-layer perceptron (128 wide, rectifiers after the first two layers); each node takes the
  mean of the messages arriving at it, and its own features, that mean and its graph's attribute go through a two-layer
  perceptron (131 wide, one rectifier) to two outputs. The kernel runs the two perceptrons as block-pipelined calls over
  5000 rows at a time, with operands narrowed to bf16; the reference runs them on the host on whole arrays; the gathers,
  the scatter-adds and the concatenations are host operations in both.

  The claims. Each program runs to the end without a fault and leaves its arguments as launched: for the kernel, at the
  word level and at the ideal values, by following the buffers' contents through its four items (host stretch, call, host
  stretch, call); for the reference by its run read back. The idealization rewrote nothing, so that claim is empty. At the
  ideal values the two results are equal entry by entry: a narrowing is the identity there, a row of a perceptron's result
  depends on the same row of its input only, so 5000 rows at a time give the rows of the whole; a bias vector cast to one
  row is that vector broadcast along a new unit axis; every other operation is the same in both programs. Nothing needs an
  input to be finite: both sides are the same sums of the same products on the extended reals.
-/
import proofs.«122312_j30777735643492_1_alg».proof.Defs
import proofs.«122312_j30777735643492_1_alg».proof.Proof.Gen.Kernel
import proofs.«122312_j30777735643492_1_alg».proof.Proof.Gen.KernelIdeal
import proofs.«122312_j30777735643492_1_alg».proof.Proof.Gen.ReferenceIdeal
import proofs.«122312_j30777735643492_1_alg».proof.Proof.Gen.Pre_finite_inputs
import proofs.«122312_j30777735643492_1_alg».proof.Proof.Gen.ReferenceIdeal.Read
import proofs.«122312_j30777735643492_1_alg».proof.Proof.KRun
import proofs.«122312_j30777735643492_1_alg».proof.Proof.Final
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.TwoCalls.args_kept (F := Bits) m ρ

theorem frame_kernel_ideal : Cert.frame_KernelIdeal := fun m ρ _ => Cert.KernelIdeal.TwoCalls.args_kept (F := Ideal) m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the reference's final stage of the (agreeing) arguments. -/
theorem algebraic : Cert.algebraic_KernelIdeal_ReferenceIdeal := by
  intro m ρ m' ρ' _ hagree
  refine ⟨fun c => Cert.KernelIdeal.TwoCalls.W4 m ρ c (Proc.devRef .tc Cert.KernelIdeal.main_v39), ?_, ?_⟩
  · exact (θ_run Cert.KernelIdeal.defs _ _).mono (fun r h c =>
      ⟨h c _ (Cert.KernelIdeal.TwoCalls.mem_uc Cert.KernelIdeal.main_v39 (by decide)),
        (h c _ (Cert.KernelIdeal.TwoCalls.mem_uc Cert.KernelIdeal.main_arg0 (by decide))).trans (Cert.KernelIdeal.TwoCalls.W4_main_arg0 m ρ c),
        (h c _ (Cert.KernelIdeal.TwoCalls.mem_uc Cert.KernelIdeal.main_arg1 (by decide))).trans (Cert.KernelIdeal.TwoCalls.W4_main_arg1 m ρ c),
        (h c _ (Cert.KernelIdeal.TwoCalls.mem_uc Cert.KernelIdeal.main_arg2 (by decide))).trans (Cert.KernelIdeal.TwoCalls.W4_main_arg2 m ρ c),
        (h c _ (Cert.KernelIdeal.TwoCalls.mem_uc Cert.KernelIdeal.main_arg3 (by decide))).trans (Cert.KernelIdeal.TwoCalls.W4_main_arg3 m ρ c),
        (h c _ (Cert.KernelIdeal.TwoCalls.mem_uc Cert.KernelIdeal.main_arg4 (by decide))).trans (Cert.KernelIdeal.TwoCalls.W4_main_arg4 m ρ c),
        (h c _ (Cert.KernelIdeal.TwoCalls.mem_uc Cert.KernelIdeal.main_arg5 (by decide))).trans (Cert.KernelIdeal.TwoCalls.W4_main_arg5 m ρ c),
        (h c _ (Cert.KernelIdeal.TwoCalls.mem_uc Cert.KernelIdeal.main_arg6 (by decide))).trans (Cert.KernelIdeal.TwoCalls.W4_main_arg6 m ρ c),
        (h c _ (Cert.KernelIdeal.TwoCalls.mem_uc Cert.KernelIdeal.main_arg7 (by decide))).trans (Cert.KernelIdeal.TwoCalls.W4_main_arg7 m ρ c),
        (h c _ (Cert.KernelIdeal.TwoCalls.mem_uc Cert.KernelIdeal.main_arg8 (by decide))).trans (Cert.KernelIdeal.TwoCalls.W4_main_arg8 m ρ c),
        (h c _ (Cert.KernelIdeal.TwoCalls.mem_uc Cert.KernelIdeal.main_arg9 (by decide))).trans (Cert.KernelIdeal.TwoCalls.W4_main_arg9 m ρ c),
        (h c _ (Cert.KernelIdeal.TwoCalls.mem_uc Cert.KernelIdeal.main_arg10 (by decide))).trans (Cert.KernelIdeal.TwoCalls.W4_main_arg10 m ρ c),
        (h c _ (Cert.KernelIdeal.TwoCalls.mem_uc Cert.KernelIdeal.main_arg11 (by decide))).trans (Cert.KernelIdeal.TwoCalls.W4_main_arg11 m ρ c),
        (h c _ (Cert.KernelIdeal.TwoCalls.mem_uc Cert.KernelIdeal.main_arg12 (by decide))).trans (Cert.KernelIdeal.TwoCalls.W4_main_arg12 m ρ c),
        (h c _ (Cert.KernelIdeal.TwoCalls.mem_uc Cert.KernelIdeal.main_arg13 (by decide))).trans (Cert.KernelIdeal.TwoCalls.W4_main_arg13 m ρ c),
        (h c _ (Cert.KernelIdeal.TwoCalls.mem_uc Cert.KernelIdeal.main_arg14 (by decide))).trans (Cert.KernelIdeal.TwoCalls.W4_main_arg14 m ρ c)⟩)
      (Cert.KernelIdeal.TwoCalls.run_to_end (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13, a14⟩ := hagree c
    rw [Cert.ReferenceIdeal.Read.val_main_v58_eq, a0, a1, a2, a3, a4, a5, a6, a7, a8, a9, a10, a11, a12, a13, a14]
    exact (Cert.Bridge.kernel_result m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
